-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S1x1 : Shape := ⟨2, ![1, 1]⟩
abbrev S100000x1 : Shape := ⟨2, ![100000, 1]⟩
abbrev S5000x1 : Shape := ⟨2, ![5000, 1]⟩
abbrev S5000 : Shape := ⟨1, ![5000]⟩

abbrev nBuf : Space → Nat
  | .hbm => 89
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S1x1, .f32⟩
  | .hbm, ⟨88, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S1_S1x1 : S1.ShapeCasts S1x1
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x32, .f32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x32, .f32⟩
  | 123 => ⟨S1700000x1, .f32⟩
  | 124 => ⟨S1700000x32, .f32⟩
  | 125 => ⟨S1700000x32, .f32⟩
  | 126 => ⟨S_, .f32⟩
  | 127 => ⟨S100000x32, .f32⟩
  | _ => ⟨S100000x128, .f32⟩

abbrev hbmTy0_1 (i : Nat) : BufTy := match i % 128 with
  | 0 => ⟨S1700000x1, .i32⟩
  | 1 => ⟨S100000x32, .f32⟩
  | 2 => ⟨S1x32, .f32⟩
  | 3 => ⟨S100000x32, .f32⟩
  | 4 => ⟨S100000x32, .f32⟩
  | 5 => ⟨S_, .f32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x32, .f32⟩
  | 12 => ⟨S100000x32, .f32⟩
  | 13 => ⟨S100000x32, .f32⟩
  | 14 => ⟨S_, .f32⟩
  | 15 => ⟨S100000, .f32⟩
  | 16 => ⟨S100000x1, .f32⟩
  | 17 => ⟨S100000x1, .f32⟩
  | 18 => ⟨S100000x32, .f32⟩
  | 19 => ⟨S100000x32, .f32⟩
  | 20 => ⟨S100000x1, .f32⟩
  | 21 => ⟨S1x1, .f32⟩
  | 22 => ⟨S100000x1, .f32⟩
  | 23 => ⟨S100000x1, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S_, .f32⟩
  | 30 => ⟨S100000x1, .f32⟩
  | 31 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_call3_cst_0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_cst_1 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_22 : Ref sig .tc := ⟨.hbm, 154, rfl⟩
abbrev main_v102 : Ref sig .tc := ⟨.hbm, 155, rfl⟩
abbrev main_v103 : Ref sig .tc := ⟨.hbm, 156, rfl⟩
abbrev main_cst_23 : Ref sig .tc := ⟨.hbm, 157, rfl⟩
abbrev main_v104 : Ref sig .tc := ⟨.hbm, 158, rfl⟩
abbrev main_v105 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.RefRunValue.lean ====
/-
  The reference program's run, read stage by stage.

  The reference's @main is one line of 152 host operations. It is cut here into consecutive stretches — the edge
  arrays and the first product; the first aggregation, bias, rectifier and second product; the edge arrays again; the
  second aggregation; the bias, log-softmax, last product and logistic function. Each stretch is read as: from ANY
  buffer contents in which its inputs hold the reference's stage values, its outputs hold the reference's stage values,
  and the buffers it does not write keep their contents. Chained from the launch contents, the result buffer ends at the
  last stage's value of the eight arguments.
-/
import proofs.«129138_j23244363006577_1_alg».proof.Proof.RefRead
import Idealize.ShloMosaic.Lib.StableHlo.Run

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- What the one-pass reading of a stretch leaves unread — an operand under a concatenation's list of pieces —, read one
    (operation, buffer) pair at a time. -/
macro "after_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The stretches -/

/-- The edge arrays (source and destination lists with the self-loops, the per-edge normalisation) and the first
    product: operations 1 … 44. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v6 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v20 (broadcastInDim S1700000 ![] bcast_S_S1700000 : (⟨S_, .i32⟩ : BufTy).Contents (Elt F) → (⟨S1700000, .i32⟩ : BufTy).Contents (Elt F)),
    binary main_v6 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v6 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v27 (broadcastInDim S1700000 ![] bcast_S_S1700000 : (⟨S_, .i32⟩ : BufTy).Contents (Elt F) → (⟨S1700000, .i32⟩ : BufTy).Contents (Elt F)),
    binary main_v7 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v17 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)) ]

/-- The first aggregation, the bias, the rectifier and the second product: operations 45 … 67. -/
abbrev opsB : List (HloOp τ sig (Elt F)) :=
  [ nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v6 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v6 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v4 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v32 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v7 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]

/-- The edge arrays again: operations 68 … 106. -/
abbrev opsC : List (HloOp τ sig (Elt F)) :=
  [ nullary main_v51 (iotaInDim S100000 32 0),
    binary main_v1 main_v51 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v51 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_10 (constant S_ .f32 0x3F800000#32),
    unary main_cst_10 main_v54 (broadcastInDim S1700000 ![] bcast_S_S1700000 : (⟨S_, .f32⟩ : BufTy).Contents (Elt F) → (⟨S1700000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    unary main_v53 main_v56 (broadcastInDim S1700000x1 ![0] bcast_S1700000_S1700000x1_0 : (⟨S1700000, .i32⟩ : BufTy).Contents (Elt F) → (⟨S1700000x1, .i32⟩ : BufTy).Contents (Elt F)),
    ternary main_v55 main_v56 main_v54 main_v57 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_12 (constant S_ .f32 0x00000000#32),
    unary main_cst_12 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v60 (broadcastInDim S100000 ![] bcast_S_S100000 : (⟨S_, .f32⟩ : BufTy).Contents (Elt F) → (⟨S100000, .f32⟩ : BufTy).Contents (Elt F)),
    binary main_v57 main_v60 main_v61 (maximumf : (⟨S100000, .f32⟩ : BufTy).Contents (Elt F) → (⟨S100000, .f32⟩ : BufTy).Contents (Elt F) → (⟨S100000, .f32⟩ : BufTy).Contents (Elt F)),
    unary main_v61 main_v62 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v62) (TRef.of (T := ⟨S100000, .f32⟩) main_call2_v1) (TRef.of (T := ⟨S100000, .f32⟩) main_v63) select,
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v52 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v52 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v52 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v63 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_17 (constantI S_ 32 0#32),
    unary main_c_17 main_v71 (broadcastInDim S1700000 ![] bcast_S_S1700000 : (⟨S_, .i32⟩ : BufTy).Contents (Elt F) → (⟨S1700000, .i32⟩ : BufTy).Contents (Elt F)),
    binary main_v53 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v73 (broadcastInDim S1700000 ![] bcast_S_S1700000 : (⟨S_, .i32⟩ : BufTy).Contents (Elt F) → (⟨S1700000, .i32⟩ : BufTy).Contents (Elt F)),
    binary main_v53 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v53 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v63 main_v76 main_v77 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v70 main_v77 main_v78 (mulf : (⟨S1700000, .f32⟩ : BufTy).Contents (Elt F) → (⟨S1700000, .f32⟩ : BufTy).Contents (Elt F) → (⟨S1700000, .f32⟩ : BufTy).Contents (Elt F)) ]

/-- The second aggregation: operations 107 … 122. -/
abbrev opsD : List (HloOp τ sig (Elt F)) :=
  [ nullary main_c_19 (constantI S_ 32 0#32),
    unary main_c_19 main_v79 (broadcastInDim S1700000 ![] bcast_S_S1700000 : (⟨S_, .i32⟩ : BufTy).Contents (Elt F) → (⟨S1700000, .i32⟩ : BufTy).Contents (Elt F)),
    binary main_v52 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v81 (broadcastInDim S1700000 ![] bcast_S_S1700000 : (⟨S_, .i32⟩ : BufTy).Contents (Elt F) → (⟨S1700000, .i32⟩ : BufTy).Contents (Elt F)),
    binary main_v52 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v52 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v50 main_v84 main_v85 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v78 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x32 ![0, 1] bcast_S1700000x1_S1700000x32_0_1 : (⟨S1700000x1, .f32⟩ : BufTy).Contents (Elt F) → (⟨S1700000x32, .f32⟩ : BufTy).Contents (Elt F)),
    binary main_v85 main_v87 main_v88 (mulf : (⟨S1700000x32, .f32⟩ : BufTy).Contents (Elt F) → (⟨S1700000x32, .f32⟩ : BufTy).Contents (Elt F) → (⟨S1700000x32, .f32⟩ : BufTy).Contents (Elt F)),
    nullary main_cst_21 (constant S_ .f32 0x00000000#32),
    unary main_cst_21 main_v89 (broadcastInDim S100000x32 ![] bcast_S_S100000x32 : (⟨S_, .f32⟩ : BufTy).Contents (Elt F) → (⟨S100000x32, .f32⟩ : BufTy).Contents (Elt F)),
    unary main_v53 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ]

/-! The last stretch — the bias, the log-softmax, the last product, the scalar bias and the logistic function: operations
    123 … 152 — is cut once more, at the log-softmax's row maxima, shifted entries, row sums and result, so that each
    piece is read on its own. -/

/-- The bias added: operations 123 … 125. -/
abbrev opsE1 : List (HloOp τ sig (Elt F)) :=
  [ unary main_arg5 main_v92 (broadcastInDim S1x32 ![1] bcast_S32_S1x32_1 : (⟨S32, .f32⟩ : BufTy).Contents (Elt F) → (⟨S1x32, .f32⟩ : BufTy).Contents (Elt F)),
    unary main_v92 main_v93 (broadcastInDim S100000x32 ![0, 1] bcast_S1x32_S100000x32_0_1 : (⟨S1x32, .f32⟩ : BufTy).Contents (Elt F) → (⟨S100000x32, .f32⟩ : BufTy).Contents (Elt F)),
    binary main_v91 main_v93 main_v94 (addf : (⟨S100000x32, .f32⟩ : BufTy).Contents (Elt F) → (⟨S100000x32, .f32⟩ : BufTy).Contents (Elt F) → (⟨S100000x32, .f32⟩ : BufTy).Contents (Elt F)) ]

/-- The row maxima: operations 126 … 130. -/
abbrev opsE2 : List (HloOp τ sig (Elt F)) :=
  [ TRef.nullary (TRef.of (T := ⟨S_, .f32⟩) main_call3_cst) (constant S_ .f32 0xFF800000#32),
    TRef.binary (TRef.of (T := ⟨S100000x32, .f32⟩) main_v94) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Each entry less its row's maximum: operations 131 … 133. -/
abbrev opsE3 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v94) (TRef.of (T := ⟨S100000x32, .f32⟩) main_call3_v4) (TRef.of (T := ⟨S100000x32, .f32⟩) main_call3_v5) subf ]

/-- The row sums of the exponentials: operations 134 … 136. -/
abbrev opsE4 : List (HloOp τ sig (Elt F)) :=
  [ TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_) ]

/-- The logarithms subtracted: operations 137 … 140. -/
abbrev opsE5 : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v95) subf ]

/-- The last product, the scalar bias and the logistic function: operations 141 … 152. -/
abbrev opsE6 : List (HloOp τ sig (Elt F)) :=
  [ binary main_v95 main_arg6 main_v96 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    unary main_arg7 main_v97 (broadcastInDim S1x1 ![1] bcast_S1_S1x1_1 : (⟨S1, .f32⟩ : BufTy).Contents (Elt F) → (⟨S1x1, .f32⟩ : BufTy).Contents (Elt F)),
    unary main_v97 main_v98 (broadcastInDim S100000x1 ![0, 1] bcast_S1x1_S100000x1_0_1 : (⟨S1x1, .f32⟩ : BufTy).Contents (Elt F) → (⟨S100000x1, .f32⟩ : BufTy).Contents (Elt F)),
    binary main_v96 main_v98 main_v99 (addf : (⟨S100000x1, .f32⟩ : BufTy).Contents (Elt F) → (⟨S100000x1, .f32⟩ : BufTy).Contents (Elt F) → (⟨S100000x1, .f32⟩ : BufTy).Contents (Elt F)),
    unary main_v99 main_v100 (Host.negf : (⟨S100000x1, .f32⟩ : BufTy).Contents (Elt F) → (⟨S100000x1, .f32⟩ : BufTy).Contents (Elt F)),
    unary main_v100 main_v101 (Host.exp : (⟨S100000x1, .f32⟩ : BufTy).Contents (Elt F) → (⟨S100000x1, .f32⟩ : BufTy).Contents (Elt F)),
    nullary main_cst_22 (constant S_ .f32 0x3F800000#32),
    unary main_cst_22 main_v102 (broadcastInDim S100000x1 ![] bcast_S_S100000x1 : (⟨S_, .f32⟩ : BufTy).Contents (Elt F) → (⟨S100000x1, .f32⟩ : BufTy).Contents (Elt F)),
    binary main_v102 main_v101 main_v103 (addf : (⟨S100000x1, .f32⟩ : BufTy).Contents (Elt F) → (⟨S100000x1, .f32⟩ : BufTy).Contents (Elt F) → (⟨S100000x1, .f32⟩ : BufTy).Contents (Elt F)),
    nullary main_cst_23 (constant S_ .f32 0x3F800000#32),
    unary main_cst_23 main_v104 (broadcastInDim S100000x1 ![] bcast_S_S100000x1 : (⟨S_, .f32⟩ : BufTy).Contents (Elt F) → (⟨S100000x1, .f32⟩ : BufTy).Contents (Elt F)),
    binary main_v104 main_v103 main_v105 (Host.divf : (⟨S100000x1, .f32⟩ : BufTy).Contents (Elt F) → (⟨S100000x1, .f32⟩ : BufTy).Contents (Elt F) → (⟨S100000x1, .f32⟩ : BufTy).Contents (Elt F)) ]

/-- @main's operations are the stretches in order. -/
theorem ops_split : (ops : List (HloOp τ sig (Elt F)))
    = opsA ++ (opsB ++ (opsC ++ (opsD ++ (opsE1 ++ (opsE2 ++ (opsE3 ++ (opsE4 ++ (opsE5 ++ opsE6)))))))) := rfl

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## First stretch: its outputs are the reference's stage values of the arguments; the later arguments are kept -/

theorem a_v1 (W : Valuation τ sig (Elt F)) :
    after opsA W (Proc.devRef .tc main_v1) = val_main_v1 (F := F) (W (Proc.devRef .tc main_arg1)) := by
  dsimp only [opsA]
  after_results_simp
  rfl

theorem a_v3 (W : Valuation τ sig (Elt F)) :
    after opsA W (Proc.devRef .tc main_v3) = val_main_v3 (F := F) (W (Proc.devRef .tc main_arg1)) := by
  dsimp only [opsA]
  after_results_simp
  rfl

theorem a_v4 (W : Valuation τ sig (Elt F)) :
    after opsA W (Proc.devRef .tc main_v4) = val_main_v4 (F := F) (W (Proc.devRef .tc main_arg0)) (W (Proc.devRef .tc main_arg2)) := by
  dsimp only [opsA]
  after_results_simp
  rfl

theorem a_v6 (W : Valuation τ sig (Elt F)) :
    after opsA W (Proc.devRef .tc main_v6) = val_main_v6 (F := F) (W (Proc.devRef .tc main_arg1)) := by
  dsimp only [opsA]
  after_results_simp
  rfl

theorem a_v7 (W : Valuation τ sig (Elt F)) :
    after opsA W (Proc.devRef .tc main_v7) = val_main_v7 (F := F) (W (Proc.devRef .tc main_arg1)) := by
  dsimp only [opsA]
  after_results_simp
  rfl

theorem a_v32 (W : Valuation τ sig (Elt F)) :
    after opsA W (Proc.devRef .tc main_v32) = val_main_v32 (F := F) (W (Proc.devRef .tc main_arg1)) := by
  dsimp only [opsA]
  after_results_simp
  rfl

theorem keepA_arg3 (W : Valuation τ sig (Elt F)) :
    after opsA W (Proc.devRef .tc main_arg3) = W (Proc.devRef .tc main_arg3) := by
  dsimp only [opsA]
  after_results_simp

theorem keepA_arg4 (W : Valuation τ sig (Elt F)) :
    after opsA W (Proc.devRef .tc main_arg4) = W (Proc.devRef .tc main_arg4) := by
  dsimp only [opsA]
  after_results_simp

theorem keepA_arg5 (W : Valuation τ sig (Elt F)) :
    after opsA W (Proc.devRef .tc main_arg5) = W (Proc.devRef .tc main_arg5) := by
  dsimp only [opsA]
  after_results_simp

theorem keepA_arg6 (W : Valuation τ sig (Elt F)) :
    after opsA W (Proc.devRef .tc main_arg6) = W (Proc.devRef .tc main_arg6) := by
  dsimp only [opsA]
  after_results_simp

theorem keepA_arg7 (W : Valuation τ sig (Elt F)) :
    after opsA W (Proc.devRef .tc main_arg7) = W (Proc.devRef .tc main_arg7) := by
  dsimp only [opsA]
  after_results_simp

/-! ## Second stretch -/

theorem b_v50 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F))
    (h4 : W (Proc.devRef .tc main_v4) = val_main_v4 (F := F) x0 x2)
    (h6 : W (Proc.devRef .tc main_v6) = val_main_v6 (F := F) x1)
    (h7 : W (Proc.devRef .tc main_v7) = val_main_v7 (F := F) x1)
    (h32 : W (Proc.devRef .tc main_v32) = val_main_v32 (F := F) x1)
    (ha3 : W (Proc.devRef .tc main_arg3) = x3)
    (ha4 : W (Proc.devRef .tc main_arg4) = x4) :
    after opsB W (Proc.devRef .tc main_v50) = val_main_v50 (F := F) x0 x1 x2 x3 x4 := by
  dsimp only [opsB]
  after_results_simp
  after_rest
  rw [h4, h6, h7, h32, ha3, ha4]
  rfl

theorem keepB_v1 (W : Valuation τ sig (Elt F)) :
    after opsB W (Proc.devRef .tc main_v1) = W (Proc.devRef .tc main_v1) := by
  dsimp only [opsB]
  after_results_simp

theorem keepB_v3 (W : Valuation τ sig (Elt F)) :
    after opsB W (Proc.devRef .tc main_v3) = W (Proc.devRef .tc main_v3) := by
  dsimp only [opsB]
  after_results_simp

theorem keepB_arg5 (W : Valuation τ sig (Elt F)) :
    after opsB W (Proc.devRef .tc main_arg5) = W (Proc.devRef .tc main_arg5) := by
  dsimp only [opsB]
  after_results_simp

theorem keepB_arg6 (W : Valuation τ sig (Elt F)) :
    after opsB W (Proc.devRef .tc main_arg6) = W (Proc.devRef .tc main_arg6) := by
  dsimp only [opsB]
  after_results_simp

theorem keepB_arg7 (W : Valuation τ sig (Elt F)) :
    after opsB W (Proc.devRef .tc main_arg7) = W (Proc.devRef .tc main_arg7) := by
  dsimp only [opsB]
  after_results_simp

/-! ## Third stretch -/

theorem c_v52 (W : Valuation τ sig (Elt F)) (x1 : (⟨S2x1600000, .i32⟩ : BufTy).Contents (Elt F))
    (h1 : W (Proc.devRef .tc main_v1) = val_main_v1 (F := F) x1) :
    after opsC W (Proc.devRef .tc main_v52) = val_main_v52 (F := F) x1 := by
  dsimp only [opsC]
  after_results_simp
  after_rest
  rw [h1]
  rfl

theorem c_v53 (W : Valuation τ sig (Elt F)) (x1 : (⟨S2x1600000, .i32⟩ : BufTy).Contents (Elt F))
    (h3 : W (Proc.devRef .tc main_v3) = val_main_v3 (F := F) x1) :
    after opsC W (Proc.devRef .tc main_v53) = val_main_v53 (F := F) x1 := by
  dsimp only [opsC]
  after_results_simp
  after_rest
  rw [h3]
  rfl

theorem c_v78 (W : Valuation τ sig (Elt F)) (x1 : (⟨S2x1600000, .i32⟩ : BufTy).Contents (Elt F))
    (h1 : W (Proc.devRef .tc main_v1) = val_main_v1 (F := F) x1)
    (h3 : W (Proc.devRef .tc main_v3) = val_main_v3 (F := F) x1) :
    after opsC W (Proc.devRef .tc main_v78) = val_main_v78 (F := F) x1 := by
  dsimp only [opsC]
  after_results_simp
  after_rest
  rw [h1, h3]
  rfl

theorem keepC_v50 (W : Valuation τ sig (Elt F)) :
    after opsC W (Proc.devRef .tc main_v50) = W (Proc.devRef .tc main_v50) := by
  dsimp only [opsC]
  after_results_simp

theorem keepC_arg5 (W : Valuation τ sig (Elt F)) :
    after opsC W (Proc.devRef .tc main_arg5) = W (Proc.devRef .tc main_arg5) := by
  dsimp only [opsC]
  after_results_simp

theorem keepC_arg6 (W : Valuation τ sig (Elt F)) :
    after opsC W (Proc.devRef .tc main_arg6) = W (Proc.devRef .tc main_arg6) := by
  dsimp only [opsC]
  after_results_simp

theorem keepC_arg7 (W : Valuation τ sig (Elt F)) :
    after opsC W (Proc.devRef .tc main_arg7) = W (Proc.devRef .tc main_arg7) := by
  dsimp only [opsC]
  after_results_simp

/-! ## Fourth stretch -/

theorem d_v91 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F))
    (h50 : W (Proc.devRef .tc main_v50) = val_main_v50 (F := F) x0 x1 x2 x3 x4)
    (h52 : W (Proc.devRef .tc main_v52) = val_main_v52 (F := F) x1)
    (h53 : W (Proc.devRef .tc main_v53) = val_main_v53 (F := F) x1)
    (h78 : W (Proc.devRef .tc main_v78) = val_main_v78 (F := F) x1) :
    after opsD W (Proc.devRef .tc main_v91) = val_main_v91 (F := F) x0 x1 x2 x3 x4 := by
  dsimp only [opsD]
  after_results_simp
  after_rest
  rw [h50, h52, h53, h78]
  rfl

theorem keepD_arg5 (W : Valuation τ sig (Elt F)) :
    after opsD W (Proc.devRef .tc main_arg5) = W (Proc.devRef .tc main_arg5) := by
  dsimp only [opsD]
  after_results_simp

theorem keepD_arg6 (W : Valuation τ sig (Elt F)) :
    after opsD W (Proc.devRef .tc main_arg6) = W (Proc.devRef .tc main_arg6) := by
  dsimp only [opsD]
  after_results_simp

theorem keepD_arg7 (W : Valuation τ sig (Elt F)) :
    after opsD W (Proc.devRef .tc main_arg7) = W (Proc.devRef .tc main_arg7) := by
  dsimp only [opsD]
  after_results_simp

/-! ## Last stretch, piece by piece -/

theorem e_v94 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F))
    (h91 : W (Proc.devRef .tc main_v91) = val_main_v91 (F := F) x0 x1 x2 x3 x4)
    (ha5 : W (Proc.devRef .tc main_arg5) = x5) :
    after opsE1 W (Proc.devRef .tc main_v94) = val_main_v94 (F := F) x0 x1 x2 x3 x4 x5 := by
  dsimp only [opsE1]
  after_results_simp
  after_rest
  rw [h91, ha5]
  rfl

theorem keepE1_arg6 (W : Valuation τ sig (Elt F)) :
    after opsE1 W (Proc.devRef .tc main_arg6) = W (Proc.devRef .tc main_arg6) := by
  dsimp only [opsE1]
  after_results_simp

theorem keepE1_arg7 (W : Valuation τ sig (Elt F)) :
    after opsE1 W (Proc.devRef .tc main_arg7) = W (Proc.devRef .tc main_arg7) := by
  dsimp only [opsE1]
  after_results_simp

/-- The row maxima. A typed buffer's contents are carried through transports along "the buffer's type is the value's
    type", which are identities; here they are removed one buffer at a time before the two sides are compared, so that
    the comparison never opens the reduction over the rows. -/
theorem e_rowMax (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F))
    (h94 : W (Proc.devRef .tc main_v94) = val_main_v94 (F := F) x0 x1 x2 x3 x4 x5) :
    after opsE2 W (Proc.devRef .tc main_call3_v2) = val_main_call3_v2 (F := F) x0 x1 x2 x3 x4 x5 := by
  dsimp only [opsE2]
  after_results_simp
  after_rest
  rw [h94]
  have k1 : ∀ E, (TRef.of (T := ⟨S100000, .f32⟩) main_call3_v2).toBuf (Val := Elt F) E = E := fun _ => rfl
  have k2 : ∀ E, (TRef.of (T := ⟨S100000, .f32⟩) main_call3_v1).toBuf (Val := Elt F) E = E := fun _ => rfl
  have k3 : ∀ E, (TRef.of (T := ⟨S100000, .f32⟩) main_call3_v1).ofBuf (Val := Elt F) E = E := fun _ => rfl
  have k4 : ∀ E, (TRef.of (T := ⟨S_, .f32⟩) main_call3_cst_0).toBuf (Val := Elt F) E = E := fun _ => rfl
  have k5 : ∀ E, (TRef.of (T := ⟨S_, .f32⟩) main_call3_cst_0).ofBuf (Val := Elt F) E = E := fun _ => rfl
  have k6 : ∀ E, (TRef.of (T := ⟨S100000, .f32⟩) main_call3_v0).toBuf (Val := Elt F) E = E := fun _ => rfl
  have k7 : ∀ E, (TRef.of (T := ⟨S100000, .f32⟩) main_call3_v0).ofBuf (Val := Elt F) E = E := fun _ => rfl
  have k8 : ∀ E, (TRef.of (T := ⟨S100000x32, .f32⟩) main_v94).ofBuf (Val := Elt F) E = E := fun _ => rfl
  have k9 : ∀ E, (TRef.of (T := ⟨S_, .f32⟩) main_call3_cst).toBuf (Val := Elt F) E = E := fun _ => rfl
  have k10 : ∀ E, (TRef.of (T := ⟨S_, .f32⟩) main_call3_cst).ofBuf (Val := Elt F) E = E := fun _ => rfl
  simp only [k1, k2, k3, k4, k5, k6, k7, k8, k9, k10]
  rfl

theorem keepE2_v94 (W : Valuation τ sig (Elt F)) :
    after opsE2 W (Proc.devRef .tc main_v94) = W (Proc.devRef .tc main_v94) := by
  dsimp only [opsE2]
  after_results_simp

theorem keepE2_arg6 (W : Valuation τ sig (Elt F)) :
    after opsE2 W (Proc.devRef .tc main_arg6) = W (Proc.devRef .tc main_arg6) := by
  dsimp only [opsE2]
  after_results_simp

theorem keepE2_arg7 (W : Valuation τ sig (Elt F)) :
    after opsE2 W (Proc.devRef .tc main_arg7) = W (Proc.devRef .tc main_arg7) := by
  dsimp only [opsE2]
  after_results_simp

theorem e_shifted (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F))
    (h94 : W (Proc.devRef .tc main_v94) = val_main_v94 (F := F) x0 x1 x2 x3 x4 x5)
    (hM : W (Proc.devRef .tc main_call3_v2) = val_main_call3_v2 (F := F) x0 x1 x2 x3 x4 x5) :
    after opsE3 W (Proc.devRef .tc main_call3_v5) = val_main_call3_v5 (F := F) x0 x1 x2 x3 x4 x5 := by
  dsimp only [opsE3]
  after_results_simp
  after_rest
  rw [h94, hM]
  rfl

theorem keepE3_arg6 (W : Valuation τ sig (Elt F)) :
    after opsE3 W (Proc.devRef .tc main_arg6) = W (Proc.devRef .tc main_arg6) := by
  dsimp only [opsE3]
  after_results_simp

theorem keepE3_arg7 (W : Valuation τ sig (Elt F)) :
    after opsE3 W (Proc.devRef .tc main_arg7) = W (Proc.devRef .tc main_arg7) := by
  dsimp only [opsE3]
  after_results_simp

theorem e_sumExp (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F))
    (h5 : W (Proc.devRef .tc main_call3_v5) = val_main_call3_v5 (F := F) x0 x1 x2 x3 x4 x5) :
    after opsE4 W (Proc.devRef .tc main_call3_v7) = val_main_call3_v7 (F := F) x0 x1 x2 x3 x4 x5 := by
  dsimp only [opsE4]
  after_results_simp
  after_rest
  rw [h5]
  rfl

theorem keepE4_call3_v5 (W : Valuation τ sig (Elt F)) :
    after opsE4 W (Proc.devRef .tc main_call3_v5) = W (Proc.devRef .tc main_call3_v5) := by
  dsimp only [opsE4]
  after_results_simp

theorem keepE4_arg6 (W : Valuation τ sig (Elt F)) :
    after opsE4 W (Proc.devRef .tc main_arg6) = W (Proc.devRef .tc main_arg6) := by
  dsimp only [opsE4]
  after_results_simp

theorem keepE4_arg7 (W : Valuation τ sig (Elt F)) :
    after opsE4 W (Proc.devRef .tc main_arg7) = W (Proc.devRef .tc main_arg7) := by
  dsimp only [opsE4]
  after_results_simp

theorem e_logSoftmax (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F))
    (h5 : W (Proc.devRef .tc main_call3_v5) = val_main_call3_v5 (F := F) x0 x1 x2 x3 x4 x5)
    (h7 : W (Proc.devRef .tc main_call3_v7) = val_main_call3_v7 (F := F) x0 x1 x2 x3 x4 x5) :
    after opsE5 W (Proc.devRef .tc main_v95) = val_main_v95 (F := F) x0 x1 x2 x3 x4 x5 := by
  dsimp only [opsE5]
  after_results_simp
  after_rest
  rw [h5, h7]
  rfl

theorem keepE5_arg6 (W : Valuation τ sig (Elt F)) :
    after opsE5 W (Proc.devRef .tc main_arg6) = W (Proc.devRef .tc main_arg6) := by
  dsimp only [opsE5]
  after_results_simp

theorem keepE5_arg7 (W : Valuation τ sig (Elt F)) :
    after opsE5 W (Proc.devRef .tc main_arg7) = W (Proc.devRef .tc main_arg7) := by
  dsimp only [opsE5]
  after_results_simp

theorem e_v105 (W : Valuation τ sig (Elt F)) (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) (x6 : (⟨S32x1, .f32⟩ : BufTy).Contents (Elt F)) (x7 : (⟨S1, .f32⟩ : BufTy).Contents (Elt F))
    (h95 : W (Proc.devRef .tc main_v95) = val_main_v95 (F := F) x0 x1 x2 x3 x4 x5)
    (ha6 : W (Proc.devRef .tc main_arg6) = x6)
    (ha7 : W (Proc.devRef .tc main_arg7) = x7) :
    after opsE6 W (Proc.devRef .tc main_v105) = val_main_v105 (F := F) x0 x1 x2 x3 x4 x5 x6 x7 := by
  dsimp only [opsE6]
  after_results_simp
  after_rest
  rw [h95, ha6, ha7]
  rfl

/-! ## The whole line, and the run -/

/-- From any buffer contents, after @main's 152 operations the result buffer holds the last stage's value of the eight
    argument buffers' contents. -/
theorem result_eq (V : Valuation τ sig (Elt F)) :
    after ops V (Proc.devRef .tc main_v105) = val_main_v105 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append, after_append, after_append, after_append, after_append, after_append,
    after_append, after_append]
  have h1 := (keepB_v1 (after opsA V)).trans (a_v1 V)
  have h3 := (keepB_v3 (after opsA V)).trans (a_v3 V)
  have h50 := (keepC_v50 (after opsB (after opsA V))).trans
    (b_v50 (after opsA V) _ _ _ _ _ (a_v4 V) (a_v6 V) (a_v7 V) (a_v32 V) (keepA_arg3 V) (keepA_arg4 V))
  have h91 := d_v91 (after opsC (after opsB (after opsA V))) _ _ _ _ _ h50 (c_v52 _ _ h1) (c_v53 _ _ h3) (c_v78 _ _ h1 h3)
  have k5 := ((((keepD_arg5 (after opsC (after opsB (after opsA V)))).trans (keepC_arg5 (after opsB (after opsA V)))).trans (keepB_arg5 (after opsA V))).trans (keepA_arg5 V))
  have k6 := (((((((((keepE5_arg6 (after opsE4 (after opsE3 (after opsE2 (after opsE1 (after opsD (after opsC (after opsB (after opsA V))))))))).trans (keepE4_arg6 (after opsE3 (after opsE2 (after opsE1 (after opsD (after opsC (after opsB (after opsA V))))))))).trans (keepE3_arg6 (after opsE2 (after opsE1 (after opsD (after opsC (after opsB (after opsA V)))))))).trans (keepE2_arg6 (after opsE1 (after opsD (after opsC (after opsB (after opsA V))))))).trans (keepE1_arg6 (after opsD (after opsC (after opsB (after opsA V)))))).trans (keepD_arg6 (after opsC (after opsB (after opsA V))))).trans (keepC_arg6 (after opsB (after opsA V)))).trans (keepB_arg6 (after opsA V))).trans (keepA_arg6 V))
  have k7 := (((((((((keepE5_arg7 (after opsE4 (after opsE3 (after opsE2 (after opsE1 (after opsD (after opsC (after opsB (after opsA V))))))))).trans (keepE4_arg7 (after opsE3 (after opsE2 (after opsE1 (after opsD (after opsC (after opsB (after opsA V))))))))).trans (keepE3_arg7 (after opsE2 (after opsE1 (after opsD (after opsC (after opsB (after opsA V)))))))).trans (keepE2_arg7 (after opsE1 (after opsD (after opsC (after opsB (after opsA V))))))).trans (keepE1_arg7 (after opsD (after opsC (after opsB (after opsA V)))))).trans (keepD_arg7 (after opsC (after opsB (after opsA V))))).trans (keepC_arg7 (after opsB (after opsA V)))).trans (keepB_arg7 (after opsA V))).trans (keepA_arg7 V))
  have h94 := e_v94 (after opsD (after opsC (after opsB (after opsA V)))) _ _ _ _ _ _ h91 k5
  have hM := e_rowMax (after opsE1 (after opsD (after opsC (after opsB (after opsA V))))) _ _ _ _ _ _ h94
  have h5 := e_shifted (after opsE2 (after opsE1 (after opsD (after opsC (after opsB (after opsA V)))))) _ _ _ _ _ _ ((keepE2_v94 (after opsE1 (after opsD (after opsC (after opsB (after opsA V)))))).trans h94) hM
  have h7 := e_sumExp (after opsE3 (after opsE2 (after opsE1 (after opsD (after opsC (after opsB (after opsA V))))))) _ _ _ _ _ _ h5
  have h95 := e_logSoftmax (after opsE4 (after opsE3 (after opsE2 (after opsE1 (after opsD (after opsC (after opsB (after opsA V)))))))) _ _ _ _ _ _ ((keepE4_call3_v5 (after opsE3 (after opsE2 (after opsE1 (after opsD (after opsC (after opsB (after opsA V)))))))).trans h5) h7
  exact e_v105 (after opsE5 (after opsE4 (after opsE3 (after opsE2 (after opsE1 (after opsD (after opsC (after opsB (after opsA V))))))))) _ _ _ _ _ _ _ _ h95 k6 k7

set_option maxRecDepth 8192 in
set_option maxHeartbeats 60800000 in
/-- On every device, for any float values, from any memory with zero counters: every weakly fair execution of @main
    terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v105).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RunValue

end
-- ==== Proof.KRun.lean ====
/-
  The run of the three-layer program with its result named.

  @main is eight segments: three stretches of host operations, then the first layer's launch, a stretch, the second
  layer's launch, a stretch, the last layer's launch. The contents of every buffer at each segment boundary are a fold
  from the launch memory: a stretch applies its operations; a launch leaves its arrays at what its write-backs leave
  and every other buffer as it found it. Every weakly fair execution terminates, faultless, with every unscoped buffer
  at the last boundary's contents — in particular the result buffer — and the eight argument arrays as launched.
-/
import proofs.«129138_j23244363006577_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, faultless, with the result buffer at the last boundary's contents
    and the arguments as launched: the launch of the segments, the last thread state read against the final state. -/
theorem run_value : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.Stretch.lean ====
/-
  The program's host stretches, read against the reference's stages.

  Between its three launches the program runs the same host operations as the reference: before the first launch the
  edge arrays (source and destination lists with one self-loop per node, and per edge the product of the inverse square
  roots of its two ends' degrees); after the first and after the second launch the aggregation — gather the rows at the
  sources, scale by the edge's factor, scatter-add at the destinations. Each stretch is read here from ANY buffer
  contents: where its inputs hold the reference's stage values, its output holds the reference's stage value; the
  buffers it does not write keep their contents. The bias vectors, which the program reshapes to a row where the
  reference broadcasts them to a row, are the same row.
-/
import proofs.«129138_j23244363006577_1_alg».proof.Proof.Gen.KernelIdeal.Launch
import proofs.«129138_j23244363006577_1_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]

/-! ## Before the first launch: the edge arrays -/

theorem sources (W : Valuation τ sig (Elt F)) :
    after hostOps0_2 (after hostOps0_1 (after hostOps0 W)) (Proc.devRef .tc main_v5)
      = val_main_v6 (F := F) (W (Proc.devRef .tc main_arg1)) := by
  dsimp only [hostOps0, hostOps0_1, hostOps0_2]
  after_results_simp
  rfl

theorem destinations (W : Valuation τ sig (Elt F)) :
    after hostOps0_2 (after hostOps0_1 (after hostOps0 W)) (Proc.devRef .tc main_v6)
      = val_main_v7 (F := F) (W (Proc.devRef .tc main_arg1)) := by
  dsimp only [hostOps0, hostOps0_1, hostOps0_2]
  after_results_simp
  rfl

theorem edgeFactors (W : Valuation τ sig (Elt F)) :
    after hostOps0_2 (after hostOps0_1 (after hostOps0 W)) (Proc.devRef .tc main_v31)
      = val_main_v32 (F := F) (W (Proc.devRef .tc main_arg1)) := by
  dsimp only [hostOps0, hostOps0_1, hostOps0_2]
  after_results_simp
  rfl

theorem keep0_arg0 (W : Valuation τ sig (Elt F)) :
    after hostOps0_2 (after hostOps0_1 (after hostOps0 W)) (Proc.devRef .tc main_arg0) = W (Proc.devRef .tc main_arg0) := by
  dsimp only [hostOps0, hostOps0_1, hostOps0_2]
  after_results_simp

theorem keep0_arg2 (W : Valuation τ sig (Elt F)) :
    after hostOps0_2 (after hostOps0_1 (after hostOps0 W)) (Proc.devRef .tc main_arg2) = W (Proc.devRef .tc main_arg2) := by
  dsimp only [hostOps0, hostOps0_1, hostOps0_2]
  after_results_simp

theorem keep0_arg3 (W : Valuation τ sig (Elt F)) :
    after hostOps0_2 (after hostOps0_1 (after hostOps0 W)) (Proc.devRef .tc main_arg3) = W (Proc.devRef .tc main_arg3) := by
  dsimp only [hostOps0, hostOps0_1, hostOps0_2]
  after_results_simp

theorem keep0_arg4 (W : Valuation τ sig (Elt F)) :
    after hostOps0_2 (after hostOps0_1 (after hostOps0 W)) (Proc.devRef .tc main_arg4) = W (Proc.devRef .tc main_arg4) := by
  dsimp only [hostOps0, hostOps0_1, hostOps0_2]
  after_results_simp

theorem keep0_arg5 (W : Valuation τ sig (Elt F)) :
    after hostOps0_2 (after hostOps0_1 (after hostOps0 W)) (Proc.devRef .tc main_arg5) = W (Proc.devRef .tc main_arg5) := by
  dsimp only [hostOps0, hostOps0_1, hostOps0_2]
  after_results_simp

theorem keep0_arg6 (W : Valuation τ sig (Elt F)) :
    after hostOps0_2 (after hostOps0_1 (after hostOps0 W)) (Proc.devRef .tc main_arg6) = W (Proc.devRef .tc main_arg6) := by
  dsimp only [hostOps0, hostOps0_1, hostOps0_2]
  after_results_simp

theorem keep0_arg7 (W : Valuation τ sig (Elt F)) :
    after hostOps0_2 (after hostOps0_1 (after hostOps0 W)) (Proc.devRef .tc main_arg7) = W (Proc.devRef .tc main_arg7) := by
  dsimp only [hostOps0, hostOps0_1, hostOps0_2]
  after_results_simp

/-! ## A vector reshaped to a row is the vector broadcast to a row -/

/-- The first bias: 64 entries as a 1 × 64 row. -/
theorem row64 (x : (⟨S64, .f32⟩ : BufTy).Contents (Elt F)) :
    shapeCast S1x64 x shapeCasts_S64_S1x64 = val_main_v46 (F := F) x := by
  funext j
  rw [val_main_v46_apply]
  exact shapeCast_apply x shapeCasts_S64_S1x64 j (idx_main_v46 j)
    (by rewrite [Shape.rowMajor_val_two, Shape.rowMajor_val_one]; have h0 : (j 0).val < 1 := (j 0).isLt; have h1 : (j 1).val < 64 := (j 1).isLt; show (j 1).val = (j 0).val * 64 + (j 1).val; omega)

/-- The second bias: 32 entries as a 1 × 32 row. -/
theorem row32 (x : (⟨S32, .f32⟩ : BufTy).Contents (Elt F)) :
    shapeCast S1x32 x shapeCasts_S32_S1x32 = val_main_v92 (F := F) x := by
  funext j
  rw [val_main_v92_apply]
  exact shapeCast_apply x shapeCasts_S32_S1x32 j (idx_main_v92 j)
    (by rewrite [Shape.rowMajor_val_two, Shape.rowMajor_val_one]; have h0 : (j 0).val < 1 := (j 0).isLt; have h1 : (j 1).val < 32 := (j 1).isLt; show (j 1).val = (j 0).val * 32 + (j 1).val; omega)

/-- The scalar bias: one entry as a 1 × 1 cell. -/
theorem cell1 (x : (⟨S1, .f32⟩ : BufTy).Contents (Elt F)) :
    shapeCast S1x1 x shapeCasts_S1_S1x1 = val_main_v97 (F := F) x := by
  funext j
  rw [val_main_v97_apply]
  exact shapeCast_apply x shapeCasts_S1_S1x1 j (idx_main_v97 j)
    (by rewrite [Shape.rowMajor_val_two, Shape.rowMajor_val_one]; have h0 : (j 0).val < 1 := (j 0).isLt; have h1 : (j 1).val < 1 := (j 1).isLt; show 0 = (j 0).val * 1 + (j 1).val; omega)

/-! ## Between the first and the second launch: the first aggregation, and the first bias as a row -/

theorem aggregate1 (W : Valuation τ sig (Elt F)) (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S128x64, .f32⟩ : BufTy).Contents (Elt F))
    (hp : W (Proc.devRef .tc main_v32) = val_main_v4 (F := F) x0 x2)
    (hs : W (Proc.devRef .tc main_v5) = val_main_v6 (F := F) x1)
    (hd : W (Proc.devRef .tc main_v6) = val_main_v7 (F := F) x1)
    (hn : W (Proc.devRef .tc main_v31) = val_main_v32 (F := F) x1) :
    after hostOps1 W (Proc.devRef .tc main_v45) = val_main_v45 (F := F) x0 x1 x2 := by
  dsimp only [hostOps1]
  after_results_simp
  rw [hp, hs, hd, hn]
  rfl

theorem biasRow1 (W : Valuation τ sig (Elt F)) :
    after hostOps1 W (Proc.devRef .tc main_v46) = val_main_v46 (F := F) (W (Proc.devRef .tc main_arg3)) := by
  dsimp only [hostOps1]
  after_results_simp
  exact row64 _

theorem keep1_v5 (W : Valuation τ sig (Elt F)) :
    after hostOps1 W (Proc.devRef .tc main_v5) = W (Proc.devRef .tc main_v5) := by
  dsimp only [hostOps1]
  after_results_simp

theorem keep1_v6 (W : Valuation τ sig (Elt F)) :
    after hostOps1 W (Proc.devRef .tc main_v6) = W (Proc.devRef .tc main_v6) := by
  dsimp only [hostOps1]
  after_results_simp

theorem keep1_v31 (W : Valuation τ sig (Elt F)) :
    after hostOps1 W (Proc.devRef .tc main_v31) = W (Proc.devRef .tc main_v31) := by
  dsimp only [hostOps1]
  after_results_simp

theorem keep1_arg4 (W : Valuation τ sig (Elt F)) :
    after hostOps1 W (Proc.devRef .tc main_arg4) = W (Proc.devRef .tc main_arg4) := by
  dsimp only [hostOps1]
  after_results_simp

theorem keep1_arg5 (W : Valuation τ sig (Elt F)) :
    after hostOps1 W (Proc.devRef .tc main_arg5) = W (Proc.devRef .tc main_arg5) := by
  dsimp only [hostOps1]
  after_results_simp

theorem keep1_arg6 (W : Valuation τ sig (Elt F)) :
    after hostOps1 W (Proc.devRef .tc main_arg6) = W (Proc.devRef .tc main_arg6) := by
  dsimp only [hostOps1]
  after_results_simp

theorem keep1_arg7 (W : Valuation τ sig (Elt F)) :
    after hostOps1 W (Proc.devRef .tc main_arg7) = W (Proc.devRef .tc main_arg7) := by
  dsimp only [hostOps1]
  after_results_simp

/-! ## Between the second and the last launch: the second aggregation, and the second bias and the scalar bias as rows -/

theorem aggregate2 (W : Valuation τ sig (Elt F)) (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S128x64, .f32⟩ : BufTy).Contents (Elt F)) (x3 : (⟨Cert.ReferenceIdeal.S64, .f32⟩ : BufTy).Contents (Elt F))
    (x4 : (⟨Cert.ReferenceIdeal.S64x32, .f32⟩ : BufTy).Contents (Elt F))
    (hp : W (Proc.devRef .tc main_v47) = val_main_v50 (F := F) x0 x1 x2 x3 x4)
    (hs : W (Proc.devRef .tc main_v5) = val_main_v52 (F := F) x1)
    (hd : W (Proc.devRef .tc main_v6) = val_main_v53 (F := F) x1)
    (hn : W (Proc.devRef .tc main_v31) = val_main_v78 (F := F) x1) :
    after hostOps2 W (Proc.devRef .tc main_v60) = val_main_v91 (F := F) x0 x1 x2 x3 x4 := by
  dsimp only [hostOps2]
  after_results_simp
  rw [hp, hs, hd, hn]
  rfl

theorem biasRow2 (W : Valuation τ sig (Elt F)) :
    after hostOps2 W (Proc.devRef .tc main_v61) = val_main_v92 (F := F) (W (Proc.devRef .tc main_arg5)) := by
  dsimp only [hostOps2]
  after_results_simp
  exact row32 _

theorem biasCell (W : Valuation τ sig (Elt F)) :
    after hostOps2 W (Proc.devRef .tc main_v62) = val_main_v97 (F := F) (W (Proc.devRef .tc main_arg7)) := by
  dsimp only [hostOps2]
  after_results_simp
  exact cell1 _

theorem keep2_arg6 (W : Valuation τ sig (Elt F)) :
    after hostOps2 W (Proc.devRef .tc main_arg6) = W (Proc.devRef .tc main_arg6) := by
  dsimp only [hostOps2]
  after_results_simp

/-- The reference builds the edge arrays a second time, by the same operations: the same arrays. -/
theorem sources_again (x1 : (⟨Cert.ReferenceIdeal.S2x1600000, .i32⟩ : BufTy).Contents (Elt F)) :
    val_main_v52 (F := F) x1 = val_main_v6 (F := F) x1 := rfl
theorem destinations_again (x1 : (⟨Cert.ReferenceIdeal.S2x1600000, .i32⟩ : BufTy).Contents (Elt F)) :
    val_main_v53 (F := F) x1 = val_main_v7 (F := F) x1 := rfl
theorem edgeFactors_again (x1 : (⟨Cert.ReferenceIdeal.S2x1600000, .i32⟩ : BufTy).Contents (Elt F)) :
    val_main_v78 (F := F) x1 = val_main_v32 (F := F) x1 := rfl

end Cert.KernelIdeal.Stretch

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.Spec.lean ====
/-
  The two scalar functions of the last layer, on the extended reals: the log-softmax of a finite family, shifted by its
  maximum as both programs compute it, and the logistic function written out with a negation, an exponential, a sum and
  a quotient.
-/
import Idealize.ShloMosaic.PureOps
import Idealize.ShloMosaic.PureOps.Ideal.Laws

noncomputable section

open scoped BigOperators

namespace Cert.Spec

open Idealize.ShloMosaic

/-- The log-softmax of a finite family: each member less the family's maximum (from -∞), less the logarithm of the sum
    of the exponentials of the members so shifted. -/
def logSoftmax {n : Nat} (x : Fin n → EReal) (c : Fin n) : EReal :=
  (x c - (Finset.univ : Finset (Fin n)).fold max ⊥ x)
    - Ideal.log (∑ k : Fin n, Ideal.exp (x k - (Finset.univ : Finset (Fin n)).fold max ⊥ x))

/-- `one / (one + exp (−z))` is the logistic function of `z` when `one` is the number one. -/
theorem quotient_logistic (one z : EReal) (h1 : one = 1) :
    FloatOps.hostDivf (F := Ideal) (φ := .f32) one
      (FloatOps.addf one (FloatOps.hostUnary .exp (FloatOps.hostNegf z))) = Ideal.logistic z := by
  subst h1
  rfl

end Cert.Spec

end
-- ==== Proof.Bodies.lean ====
/-
  The three kernel bodies read at one entry of their output block, on the extended reals.

  * first layer: entry (p, q) of the block is the product of row p of the node block with column q of the weights;
  * second layer: entry (p, q) is the sum over f of max (a(p,f) + b(f), 0) · w(f,q) — the bias row added, the
    rectifier applied, then the product with the weights;
  * last layer: with h(k) = a(p,k) + b(k) the biased row and M its maximum, the row's log-softmax
    (h(k) − M) − log Σ_l exp (h(l) − M) is contracted with the single weight column, the scalar bias added and the
    logistic function applied.
  A change of float format is the identity on the extended reals, so the roundings to bf16 in front of each product
  disappear.
-/
import proofs.«129138_j23244363006577_1_alg».proof.Proof.Gen.KernelIdeal.Skeleton
import proofs.«129138_j23244363006577_1_alg».proof.Proof.LibMatrixAtIndex
import proofs.«129138_j23244363006577_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Cert.KernelIdeal Cert.KernelIdeal.Gen Idealize.ShloMosaic Idealize.ShloMosaic.ValueIdx Cert.KernelIdeal.Pay

/-- First layer: entry (p, q) of the block's product with the weights. -/
theorem linear_apply (x0 : Vec Ideal S5000x128 .f32) (x1 : Vec Ideal S128x64 .f32) (p : Fin 5000) (q : Fin 64) :
    k0_pay1 x0 x1 (ix2 p q) = ∑ f : Fin 128, x0 (ix2 p f) * x1 (ix2 f q) := by
  unfold k0_pay1
  exact matmul_rowcol_apply dot_S5000x128_S128x64_S5000x64_1_0_0_1_n_n rfl rfl rfl rfl rfl rfl rfl rfl none x0 x1 p q

/-- Second layer: entry (p, q) — the bias row added to row p, the rectifier, then the product with column q. -/
theorem hidden_apply (v0 : Vec Ideal S5000x64 .f32) (v2 : Vec Ideal S1x64 .f32) (v9 : Vec Ideal S64x32 .f32)
    (p : Fin 5000) (q : Fin 32) :
    k1_pay1 v0 v2 v9 (ix2 p q)
      = ∑ f : Fin 64, max (v0 (ix2 p f) + v2 (ix2 (0 : Fin 1) f)) (Ideal.ofBits .f32 0x00000000#32) * v9 (ix2 f q) := by
  unfold k1_pay1
  refine (matmul_rowcol_apply dot_S5000x64_S64x32_S5000x32_1_0_0_1_n_n rfl rfl rfl rfl rfl rfl rfl rfl none _ _ p q).trans ?_
  refine Finset.sum_congr rfl fun f _ => ?_
  refine congrArg (· * v9 (ix2 f q)) ?_
  show max (shapeCast S5000x64 v0 shapeCasts_S5000x64_S5000x64 (ix2 p f)
      + broadcastTo S5000x64 (shapeCast S1x64 v2 shapeCasts_S1x64_S1x64) broadcasts_S1x64_S5000x64 (ix2 p f))
    (Ideal.ofBits .f32 0x00000000#32) = _
  rw [shapeCast_self, broadcastTo_1b_ab_apply, shapeCast_self]

/-- Last layer: entry (p, u) — the log-softmax of the biased row p against the weight column, the scalar bias added,
    through the logistic function. -/
theorem head_apply (v0 : Vec Ideal S5000x32 .f32) (v2 : Vec Ideal S1x32 .f32) (v17 : Vec Ideal S32x1 .f32)
    (v20 : Vec Ideal S1x1 .f32) (p : Fin 5000) (u : Fin 1) :
    k2_pay1 v0 v2 v17 v20 (ix2 p u)
      = Ideal.logistic ((∑ k : Fin 32, Cert.Spec.logSoftmax (fun l => v0 (ix2 p l) + v2 (ix2 (0 : Fin 1) l)) k * v17 (ix2 k u))
          + v20 (ix2 (0 : Fin 1) u)) := by
  unfold k2_pay1
  show Ideal.logistic (_ + _) = Ideal.logistic (_ + _)
  refine congrArg Ideal.logistic (congrArg₂ (· + ·) ?_ ?_)
  · refine (matmul_rowcol_apply dot_S5000x32_S32x1_S5000x1_1_0_0_1_n_n rfl rfl rfl rfl rfl rfl rfl rfl none _ _ p u).trans ?_
    refine Finset.sum_congr rfl fun k _ => ?_
    refine congrArg (· * v17 (ix2 k u)) ?_
    exact logSoftmax_rows_apply _ _ _ _ _ _ _ p k (fun l => v0 (ix2 p l) + v2 (ix2 (0 : Fin 1) l)) (fun l => by
      show shapeCast S5000x32 v0 shapeCasts_S5000x32_S5000x32 (ix2 p l)
        + broadcastTo S5000x32 (shapeCast S1x32 v2 shapeCasts_S1x32_S1x32) broadcasts_S1x32_S5000x32 (ix2 p l) = _
      rw [shapeCast_self, broadcastTo_1b_ab_apply, shapeCast_self])
  · rw [broadcastTo_1b_ab_apply, shapeCast_self]

end Cert.KernelIdeal.Bodies

end
-- ==== Proof.Layer1.lean ====
/-
  The first layer's launch as one whole-array function.

  The node array has 100000 rows, staged 5000 at a time over twenty grid points; the weights are staged whole. Point t
  writes back rows 5000·t … 5000·t + 4999 of the result, and entry (r, q) of that block is the product of row
  5000·t + r of the node array with column q of the weights — entry (5000·t + r, q) of the host's one matrix product of
  the whole arrays. The twenty blocks tile the result, so after the launch the result array IS that product.
-/
import proofs.«129138_j23244363006577_1_alg».proof.Proof.Gen.KernelIdeal.Frame
import proofs.«129138_j23244363006577_1_alg».proof.Proof.Bodies
import proofs.«129138_j23244363006577_1_alg».proof.Proof.RefRead
import Idealize.ShloMosaic.Lib.Pipeline.Value

set_option maxRecDepth 16384

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read (val_main_v4 val_main_v4_apply lidx_main_v4 ridx_main_v4)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the node block moves with the result block down the rows, the weights stay. -/
theorem blocks_at : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every row block of the result is some point's. -/
theorem blocks_onto : ∀ q0 : Fin 20, ∃ t : Fin cfg0.N, win0_2.index t = ![q0.val, 0] :=
  (by decide +kernel : ∀ q0 : Fin 20, ∃ t : Fin grid0.N, win0_2.index t = ![q0.val, 0])

/-- Entry (p, q) of what point t leaves in the result's staging buffer is the whole product's entry at that
    element's place in the array. -/
theorem block_entry (c : Dev nD) (t : Fin cfg0.N) (p : Fin 5000) (q : Fin 64) :
    k0_pay1 (iblk0 V c 0 t) (iblk0 V c 1 t) (ix2 p q)
      = val_main_v4 (F := Ideal) (V c main_arg0) (V c main_arg2) (((cfg0.win 2).blk t).view.emb (ix2 p q)) := by
  obtain ⟨e0, e1, e2, e3, e4, e5⟩ := blocks_at t
  refine (Bodies.linear_apply _ _ p q).trans ?_
  rw [val_main_v4_apply]
  refine Finset.sum_congr rfl fun f _ => ?_
  show FloatOps.mulf (F := Ideal) (φ := .f32) (V c main_arg0 (((cfg0.win 0).blk t).view.emb (ix2 p f))) (V c main_arg2 (((cfg0.win 1).blk t).view.emb (ix2 f q)))
    = FloatOps.mulf (F := Ideal) (φ := .f32) (V c main_arg0 (lidx_main_v4 (((cfg0.win 2).blk t).view.emb (ix2 p q)) f))
      (V c main_arg2 (ridx_main_v4 (((cfg0.win 2).blk t).view.emb (ix2 p q)) f))
  have h0 : ((cfg0.win 0).blk t).view.emb (ix2 p f) = lidx_main_v4 (((cfg0.win 2).blk t).view.emb (ix2 p q)) f := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * f.val = f.val; omega
  have h1 : ((cfg0.win 1).blk t).view.emb (ix2 f q) = ridx_main_v4 (((cfg0.win 2).blk t).view.emb (ix2 p q)) f := by
    funext a; apply Fin.ext
    match a with
    | ⟨0, _⟩ => show win0_1.index t (0 : Fin 2) * 128 + 1 * f.val = f.val; omega
    | ⟨1, _⟩ => show win0_1.index t (1 : Fin 2) * 64 + 1 * q.val = win0_2.index t (1 : Fin 2) * 64 + 1 * q.val; omega
  rw [h0, h1]

/-- What point t writes back is block t of the whole product. -/
theorem flushed_eq (c : Dev nD) (t : Fin cfg0.N) :
    (dat0 V c).flushed 2 t
      = ((cfg0.win 2).blk t).view.read (Elt Ideal) (val_main_v4 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  funext j
  obtain ⟨p, q, rfl⟩ : ∃ (p : Fin 5000) (q : Fin 64), j = ix2 p q := ⟨j 0, j 1, eq_ix2 j⟩
  exact block_entry V c t p q

/-- An index of the result array is in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The twenty blocks tile the result: row r lies in the block of point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := blocks_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the launch the result array is the host's matrix product of the node array with the weights, as the launch
    finds them. -/
theorem final (c : Dev nD) :
    (dat0 V c).arrAt 2 cfg0.N = val_main_v4 (F := Ideal) (V c main_arg0) (V c main_arg2) :=
  (dat0 V c).arrAt_eq_of_cover 2 _ (fun t _ => flushed_eq V c t) (cover)

end Cert.KernelIdeal.Layer1

end
-- ==== Proof.Layer2.lean ====
/-
  The second layer's launch as one whole-array function.

  The aggregated first-layer features (100000 × 64) are staged 5000 rows at a time over twenty grid points; the bias
  row and the weights are staged whole. Entry (r, q) of the block point t writes back is
      Σ_f max (a(5000·t + r, f) + b(f), 0) · w(f, q),
  which is entry (5000·t + r, q) of the host's whole computation: the bias broadcast down the rows and added, the
  rectifier, one matrix product with the weights. The twenty blocks tile the result.
-/
import proofs.«129138_j23244363006577_1_alg».proof.Proof.Gen.KernelIdeal.Frame
import proofs.«129138_j23244363006577_1_alg».proof.Proof.Bodies
import proofs.«129138_j23244363006577_1_alg».proof.Proof.RefRead
import Idealize.ShloMosaic.Lib.Pipeline.Value

set_option maxRecDepth 16384

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the feature block moves with the result block down the rows; the bias row
    and the weights stay. -/
theorem blocks_at : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 19
    ∧ win1_3.index t (1 : Fin 2) = 0 :=
  (by decide +kernel : ∀ t : Fin grid1.N, _)

/-- Every row block of the result is some point's. -/
theorem blocks_onto : ∀ q0 : Fin 20, ∃ t : Fin cfg1.N, win1_3.index t = ![q0.val, 0] :=
  (by decide +kernel : ∀ q0 : Fin 20, ∃ t : Fin grid1.N, win1_3.index t = ![q0.val, 0])

section Entry
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x64, .f32⟩ : BufTy).Contents (Elt Ideal))
  (x3 : (⟨Cert.ReferenceIdeal.S64, .f32⟩ : BufTy).Contents (Elt Ideal))

/-- Entry (p, q) of what point t leaves in the result's staging buffer is the host computation's entry at that
    element's place in the array, when the launch finds the aggregated features A and the bias row B that the host
    computes. The arrays, and the host's result G, are carried as they are: nothing here looks inside them. -/
theorem block_entry (c : Dev nD) (A : (⟨Cert.ReferenceIdeal.S100000x64, .f32⟩ : BufTy).Contents (Elt Ideal)) (B : (⟨Cert.ReferenceIdeal.S1x64, .f32⟩ : BufTy).Contents (Elt Ideal))
    (hA : V c main_v45 = A) (hB : V c main_v46 = B)
    (hA' : val_main_v45 (F := Ideal) x0 x1 x2 = A) (hB' : val_main_v46 (F := Ideal) x3 = B)
    (G : (⟨Cert.ReferenceIdeal.S100000x32, .f32⟩ : BufTy).Contents (Elt Ideal)) (hG : val_main_v50 (F := Ideal) x0 x1 x2 x3 (V c main_arg4) = G)
    (t : Fin cfg1.N) (p : Fin 5000) (q : Fin 32) :
    k1_pay1 (iblk1 V c 0 t) (iblk1 V c 1 t) (iblk1 V c 2 t) (ix2 p q) = G (((cfg1.win 3).blk t).view.emb (ix2 p q)) := by
  obtain ⟨e0, e1, e2, e3, e4, e5, e6, e7⟩ := blocks_at t
  refine (Bodies.hidden_apply _ _ _ p q).trans ?_
  rw [← hG, val_main_v50_apply]
  refine Finset.sum_congr rfl fun f _ => ?_
  rw [val_main_v49_apply, val_main_v48_apply, val_main_v47_apply, val_main_call1_v0_apply, val_main_call1_cst_apply, hA', hB',
    Ideal.maximumf_def, Ideal.addf_def, Ideal.ofBits_def]
  have h0 : ((cfg1.win 0).blk t).view.emb (ix2 p f) = lidx_main_v50 (((cfg1.win 3).blk t).view.emb (ix2 p q)) f := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * f.val = f.val; omega
  have h1 : ((cfg1.win 1).blk t).view.emb (ix2 (0 : Fin 1) f)
      = idx_main_v47 (lidx_main_v50 (((cfg1.win 3).blk t).view.emb (ix2 p q)) f) := by
    funext a; apply Fin.ext
    match a with
    | ⟨0, _⟩ => show win1_1.index t (0 : Fin 2) * 1 + 1 * 0 = 0; omega
    | ⟨1, _⟩ => show win1_1.index t (1 : Fin 2) * 64 + 1 * f.val = f.val; omega
  have h2 : ((cfg1.win 2).blk t).view.emb (ix2 f q) = ridx_main_v50 (((cfg1.win 3).blk t).view.emb (ix2 p q)) f := by
    funext a; apply Fin.ext
    match a with
    | ⟨0, _⟩ => show win1_2.index t (0 : Fin 2) * 64 + 1 * f.val = f.val; omega
    | ⟨1, _⟩ => show win1_2.index t (1 : Fin 2) * 32 + 1 * q.val = win1_3.index t (1 : Fin 2) * 32 + 1 * q.val; omega
  have ea : iblk1 V c 0 t (ix2 p f) = A (lidx_main_v50 (((cfg1.win 3).blk t).view.emb (ix2 p q)) f) := by
    show V c main_v45 (((cfg1.win 0).blk t).view.emb (ix2 p f)) = _
    rw [h0, hA]
  have eb : iblk1 V c 1 t (ix2 (0 : Fin 1) f) = B (idx_main_v47 (lidx_main_v50 (((cfg1.win 3).blk t).view.emb (ix2 p q)) f)) := by
    show V c main_v46 (((cfg1.win 1).blk t).view.emb (ix2 (0 : Fin 1) f)) = _
    rw [h1, hB]
  have ec : iblk1 V c 2 t (ix2 f q) = V c main_arg4 (ridx_main_v50 (((cfg1.win 3).blk t).view.emb (ix2 p q)) f) := by
    show V c main_arg4 (((cfg1.win 2).blk t).view.emb (ix2 f q)) = _
    rw [h2]
  rw [ea, eb, ec]

/-- What point t writes back is block t of the host computation's array. -/
theorem flushed_eq (c : Dev nD) (A : (⟨Cert.ReferenceIdeal.S100000x64, .f32⟩ : BufTy).Contents (Elt Ideal)) (B : (⟨Cert.ReferenceIdeal.S1x64, .f32⟩ : BufTy).Contents (Elt Ideal))
    (hA : V c main_v45 = A) (hB : V c main_v46 = B)
    (hA' : val_main_v45 (F := Ideal) x0 x1 x2 = A) (hB' : val_main_v46 (F := Ideal) x3 = B)
    (G : (⟨Cert.ReferenceIdeal.S100000x32, .f32⟩ : BufTy).Contents (Elt Ideal)) (hG : val_main_v50 (F := Ideal) x0 x1 x2 x3 (V c main_arg4) = G) (t : Fin cfg1.N) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero origin]
  simp only [View.ld_unit_zero (S := S5000x64) origin, View.ld_unit_zero (S := S1x64) origin, View.ld_unit_zero (S := S64x32) origin]
  funext j
  obtain ⟨p, q, rfl⟩ : ∃ (p : Fin 5000) (q : Fin 32), j = ix2 p q := ⟨j 0, j 1, eq_ix2 j⟩
  exact block_entry V x0 x1 x2 x3 c A B hA hB hA' hB' G hG t p q

end Entry

/-- An index of the result array is in point t's block iff each coordinate is in the block's range on its axis. -/
theorem mem_block (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v47).slice (win1_3.rect t)).set ↔ _
  rw [View.set_slice_whole, Rect.mem_set_unit]
  exact Iff.rfl

/-- The twenty blocks tile the result: row r lies in the block of point r / 5000. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := blocks_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- After the launch the result array is the host's second-layer product, when the launch finds the aggregated
    first-layer features and the bias row the host computes. -/
theorem final (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal)) (c : Dev nD)
    (hA : V c main_v45 = val_main_v45 (F := Ideal) x0 x1 x2) (hB : V c main_v46 = val_main_v46 (F := Ideal) x3) :
    (dat1 V c).arrAt 3 cfg1.N = val_main_v50 (F := Ideal) x0 x1 x2 x3 (V c main_arg4) :=
  (dat1 V c).arrAt_eq_of_cover 3 _ (fun t _ => flushed_eq V x0 x1 x2 x3 c _ _ hA hB rfl rfl _ rfl t) cover

end Cert.KernelIdeal.Layer2

end
-- ==== Proof.RefHead.lean ====
/-
  The host program's last layer read at one row, on the extended reals.

  With h(l) the biased aggregated features of row r, the host keeps M = max (-∞, max_l h(l)) — which is max_l h(l) —,
  subtracts it, sums the exponentials from zero, takes the logarithm and subtracts it: the log-softmax of the family h.
  That row is contracted with the single weight column, the scalar bias is added, and 1 / (1 + exp (−z)) is the
  logistic function of the sum. The biased feature matrix is carried as one opaque array Y throughout: nothing here
  looks inside it.
-/
import proofs.«129138_j23244363006577_1_alg».proof.Proof.RefRead
import proofs.«129138_j23244363006577_1_alg».proof.Proof.Spec
import proofs.«129138_j23244363006577_1_alg».proof.Proof.LibMatrixAtIndex

noncomputable section

open scoped BigOperators

namespace Cert.ReferenceIdeal.Head

open Cert.ReferenceIdeal Cert.ReferenceIdeal.Gen Cert.ReferenceIdeal.Read Idealize.ShloMosaic

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
variable (Y : (⟨S100000x32, .f32⟩ : BufTy).Contents (Elt Ideal)) (hY : val_main_v94 (F := Ideal) x0 x1 x2 x3 x4 x5 = Y)

/-- Cell (row of i, l) of the feature matrix, reached through the row-maximum's index maps. -/
theorem cell_of_max (i : S100000x1.Idx) (k l : Fin 32) :
    idx_main_call3_v7 (idx_main_call3_v3 (idx_main_call3_v4 (lidx_main_v96 i k))) l = lidx_main_v96 i l :=
  funext fun a => Fin.ext (by match a with | ⟨0, _⟩ => rfl | ⟨1, _⟩ => rfl)

/-- The same cell reached through the sum's index maps. -/
theorem cell_of_sum (i : S100000x1.Idx) (k l : Fin 32) :
    idx_main_call3_v7 (idx_main_call3_v8 (idx_main_call3_v10 (lidx_main_v96 i k))) l = lidx_main_v96 i l :=
  funext fun a => Fin.ext (by match a with | ⟨0, _⟩ => rfl | ⟨1, _⟩ => rfl)

/-- The maximum of row r of an array, from -∞. -/
def rowMax (Y : (⟨S100000x32, .f32⟩ : BufTy).Contents (Elt Ideal)) (r : S100000.Idx) : EReal :=
  (Finset.univ : Finset (Fin 32)).fold (max : EReal → EReal → EReal) (⊥ : EReal) (fun l => Y (idx_main_call3_v7 r l))

include hY in
/-- The maximum the host keeps for row r: the maximum of the row's entries (the extra maximum with -∞ changes nothing). -/
theorem rowMax_eq (r : S100000.Idx) : val_main_call3_v2 (F := Ideal) x0 x1 x2 x3 x4 x5 r = rowMax Y r := by
  rw [val_main_call3_v2_apply, val_main_call3_v1_apply, val_main_call3_cst_0_apply]
  unfold val_main_call3_v0
  rw [hY]
  have hfold := Host.reduce_eq_fold_single (FloatOps.maximumf (F := Ideal) (φ := .f32)) Y (val_main_call3_cst (F := Ideal))
    reducesTo_S100000x32_S100000_d1 (by decide) h_S_ r
  refine (congrArg (max (Ideal.ofBits .f32 0xFF800000#32)) hfold).trans ?_
  show max (Ideal.ofBits .f32 0xFF800000#32)
      ((Finset.univ : Finset (Fin 32)).fold (max : EReal → EReal → EReal) (Ideal.ofBits .f32 0xFF800000#32) (Y ∘ _)) = _
  rw [Cert.KernelIdeal.Pay.ofBits_negInf_f32, max_eq_right bot_le]
  unfold rowMax
  refine congrArg (fun f => Finset.fold (max : EReal → EReal → EReal) (⊥ : EReal) f (Finset.univ : Finset (Fin 32)))
    (funext fun l => congrArg Y ?_)
  obtain ⟨r0, rfl⟩ : ∃ r0 : Fin 100000, r = ValueIdx.ix1 r0 := ⟨r 0, ValueIdx.eq_ix1 r⟩
  refine (Cert.KernelIdeal.Pay.lift_row _ r0 l).trans ?_
  funext a; apply Fin.ext
  match a with
  | ⟨0, _⟩ => rfl
  | ⟨1, _⟩ => rfl

include hY in
/-- An entry less its row's maximum. -/
theorem shifted_eq (j : S100000x32.Idx) :
    val_main_call3_v5 (F := Ideal) x0 x1 x2 x3 x4 x5 j
      = FloatOps.subf (F := Ideal) (φ := .f32) (Y j) (rowMax Y (idx_main_call3_v3 (idx_main_call3_v4 j))) := by
  rw [val_main_call3_v5_apply, val_main_call3_v4_apply, val_main_call3_v3_apply, rowMax_eq x0 x1 x2 x3 x4 x5 Y hY, hY]

/-- The row of cell (i, k), through the row-maximum's index maps, lists the cells (i, l). -/
theorem rowMax_cell (i : S100000x1.Idx) (k : Fin 32) :
    rowMax Y (idx_main_call3_v3 (idx_main_call3_v4 (lidx_main_v96 i k)))
      = (Finset.univ : Finset (Fin 32)).fold (max : EReal → EReal → EReal) (⊥ : EReal) (fun l => Y (lidx_main_v96 i l)) := by
  unfold rowMax
  exact congrArg (fun f => Finset.fold (max : EReal → EReal → EReal) (⊥ : EReal) f (Finset.univ : Finset (Fin 32)))
    (funext fun l => congrArg Y (cell_of_max i k l))

include hY in
/-- Entry (row of i, k) of the host's log-softmax is the log-softmax of that row of the array. -/
theorem logSoftmax_eq (i : S100000x1.Idx) (k : Fin 32) :
    val_main_v95 (F := Ideal) x0 x1 x2 x3 x4 x5 (lidx_main_v96 i k)
      = Cert.Spec.logSoftmax (fun l => Y (lidx_main_v96 i l)) k := by
  have hM := rowMax_cell Y i k
  have hs : ∀ l : Fin 32, val_main_call3_v6 (F := Ideal) x0 x1 x2 x3 x4 x5
        (idx_main_call3_v7 (idx_main_call3_v8 (idx_main_call3_v10 (lidx_main_v96 i k))) l)
      = Ideal.exp (Y (lidx_main_v96 i l) - (Finset.univ : Finset (Fin 32)).fold (max : EReal → EReal → EReal) (⊥ : EReal) (fun l => Y (lidx_main_v96 i l))) := fun l => by
    rw [cell_of_sum i k l, val_main_call3_v6_apply, shifted_eq x0 x1 x2 x3 x4 x5 Y hY, rowMax_cell Y i l]
    rfl
  have hsum := Finset.sum_congr (s₁ := (Finset.univ : Finset (Fin 32))) rfl (fun l _ => hs l)
  rw [val_main_v95_apply, val_main_call3_v10_apply, val_main_call3_v9_apply, val_main_call3_v8_apply,
    val_main_call3_v7_apply, val_main_call3_cst_1_apply, shifted_eq x0 x1 x2 x3 x4 x5 Y hY, hM, hsum, Ideal.ofBits_def,
    Ideal.ofBits_zero_f32, zero_add]
  rfl

include hY in
/-- The host's result at row i: the logistic function of the row's log-softmax against the weight column, plus the bias. -/
theorem head_eq (x6 : (⟨S32x1, .f32⟩ : BufTy).Contents (Elt Ideal)) (x7 : (⟨S1, .f32⟩ : BufTy).Contents (Elt Ideal))
    (i : S100000x1.Idx) :
    val_main_v105 (F := Ideal) x0 x1 x2 x3 x4 x5 x6 x7 i
      = Ideal.logistic ((∑ k : Fin 32, Cert.Spec.logSoftmax (fun l => Y (lidx_main_v96 i l)) k * x6 (ridx_main_v96 i k))
          + val_main_v98 (F := Ideal) x7 i) := by
  rw [val_main_v105_apply, val_main_v104_apply, val_main_cst_23_apply, val_main_v103_apply, val_main_v102_apply,
    val_main_cst_22_apply, val_main_v101_apply, val_main_v100_apply]
  refine (Cert.Spec.quotient_logistic _ _ Cert.KernelIdeal.Pay.ofBits_one_f32).trans ?_
  rw [val_main_v99_apply, val_main_v96_apply]
  simp only [logSoftmax_eq x0 x1 x2 x3 x4 x5 Y hY]
  rfl

end Cert.ReferenceIdeal.Head

end
-- ==== Proof.Layer3.lean ====
/-
  The last layer's launch as one whole-array function.

  The aggregated second-layer features (100000 × 32) are staged 5000 rows at a time over twenty grid points; the bias
  row, the weight column and the scalar bias are staged whole. Entry r of the block point t writes back is the
  logistic function of the log-softmax of the biased row 5000·t + r against the weight column, plus the scalar bias —
  the host computation's entry at row 5000·t + r. The twenty blocks tile the result.
-/
import proofs.«129138_j23244363006577_1_alg».proof.Proof.Gen.KernelIdeal.Frame
import proofs.«129138_j23244363006577_1_alg».proof.Proof.Bodies
import proofs.«129138_j23244363006577_1_alg».proof.Proof.RefHead
import Idealize.ShloMosaic.Lib.Pipeline.Value

set_option maxRecDepth 16384

noncomputable section

open scoped BigOperators

namespace Cert.KernelIdeal.Layer3

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the feature block moves with the result block down the rows; the bias row,
    the weight column and the scalar bias stay. -/
theorem blocks_at : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) ≤ 19
    ∧ win2_4.index t (1 : Fin 2) = 0 :=
  (by decide +kernel : ∀ t : Fin grid2.N, _)

/-- Every row block of the result is some point's. -/
theorem blocks_onto : ∀ q0 : Fin 20, ∃ t : Fin cfg2.N, win2_4.index t = ![q0.val, 0] :=
  (by decide +kernel : ∀ q0 : Fin 20, ∃ t : Fin grid2.N, win2_4.index t = ![q0.val, 0])

section Entry
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x64, .f32⟩ : BufTy).Contents (Elt Ideal))
  (x3 : (⟨Cert.ReferenceIdeal.S64, .f32⟩ : BufTy).Contents (Elt Ideal))
  (x4 : (⟨Cert.ReferenceIdeal.S64x32, .f32⟩ : BufTy).Contents (Elt Ideal))
  (x5 : (⟨Cert.ReferenceIdeal.S32, .f32⟩ : BufTy).Contents (Elt Ideal))
  (x7 : (⟨Cert.ReferenceIdeal.S1, .f32⟩ : BufTy).Contents (Elt Ideal))

/-- Entry (p, u) of what point t leaves in the result's staging buffer is the host computation's entry at that
    element's place in the array, when the launch finds the aggregated features A, the bias row B and the scalar bias C
    that the host computes, Y being the host's biased features A + B. The arrays, and the host's result G, are carried as they are:
    nothing here looks inside them. -/
theorem block_entry (c : Dev nD) (A Y : (⟨Cert.ReferenceIdeal.S100000x32, .f32⟩ : BufTy).Contents (Elt Ideal)) (B : (⟨Cert.ReferenceIdeal.S1x32, .f32⟩ : BufTy).Contents (Elt Ideal)) (C : (⟨Cert.ReferenceIdeal.S1x1, .f32⟩ : BufTy).Contents (Elt Ideal))
    (hA : V c main_v60 = A) (hB : V c main_v61 = B) (hC : V c main_v62 = C)
    (hY : val_main_v94 (F := Ideal) x0 x1 x2 x3 x4 x5 = Y)
    (hrowY : ∀ j, Y j = FloatOps.addf (F := Ideal) (φ := .f32) (A j) (B (idx_main_v93 j)))
    (hC' : val_main_v97 (F := Ideal) x7 = C)
    (G : (⟨Cert.ReferenceIdeal.S100000x1, .f32⟩ : BufTy).Contents (Elt Ideal)) (hG : val_main_v105 (F := Ideal) x0 x1 x2 x3 x4 x5 (V c main_arg6) x7 = G)
    (t : Fin cfg2.N) (p : Fin 5000) (u : Fin 1) :
    k2_pay1 (iblk2 V c 0 t) (iblk2 V c 1 t) (iblk2 V c 2 t) (iblk2 V c 3 t) (ix2 p u)
      = G (((cfg2.win 4).blk t).view.emb (ix2 p u)) := by
  obtain ⟨e0, e1, e2, e3, e4, e5, e6, e7, e8, e9⟩ := blocks_at t
  have hu : u.val = 0 := by have := u.isLt; omega
  refine (Bodies.head_apply _ _ _ _ p u).trans ?_
  rw [← hG, Cert.ReferenceIdeal.Head.head_eq x0 x1 x2 x3 x4 x5 Y hY, val_main_v98_apply, hC']
  have h0 : ∀ l : Fin 32, ((cfg2.win 0).blk t).view.emb (ix2 p l) = lidx_main_v96 (((cfg2.win 4).blk t).view.emb (ix2 p u)) l := fun l => by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 32 + 1 * l.val = l.val; omega
  have h1 : ∀ l : Fin 32, ((cfg2.win 1).blk t).view.emb (ix2 (0 : Fin 1) l)
      = idx_main_v93 (lidx_main_v96 (((cfg2.win 4).blk t).view.emb (ix2 p u)) l) := fun l => by
    funext a; apply Fin.ext
    match a with
    | ⟨0, _⟩ => show win2_1.index t (0 : Fin 2) * 1 + 1 * 0 = 0; omega
    | ⟨1, _⟩ => show win2_1.index t (1 : Fin 2) * 32 + 1 * l.val = l.val; omega
  have h2 : ∀ k : Fin 32, ((cfg2.win 2).blk t).view.emb (ix2 k u) = ridx_main_v96 (((cfg2.win 4).blk t).view.emb (ix2 p u)) k := fun k => by
    funext a; apply Fin.ext
    match a with
    | ⟨0, _⟩ => show win2_2.index t (0 : Fin 2) * 32 + 1 * k.val = k.val; omega
    | ⟨1, _⟩ => show win2_2.index t (1 : Fin 2) * 1 + 1 * u.val = win2_4.index t (1 : Fin 2) * 1 + 1 * u.val; omega
  have h3 : ((cfg2.win 3).blk t).view.emb (ix2 (0 : Fin 1) u) = idx_main_v98 (((cfg2.win 4).blk t).view.emb (ix2 p u)) := by
    funext a; apply Fin.ext
    match a with
    | ⟨0, _⟩ => show win2_3.index t (0 : Fin 2) * 1 + 1 * 0 = 0; omega
    | ⟨1, _⟩ => show win2_3.index t (1 : Fin 2) * 1 + 1 * u.val = 0; omega
  have hrow : (fun l : Fin 32 => FloatOps.addf (F := Ideal) (φ := .f32) (iblk2 V c 0 t (ix2 p l)) (iblk2 V c 1 t (ix2 (0 : Fin 1) l)))
      = fun l : Fin 32 => Y (lidx_main_v96 (((cfg2.win 4).blk t).view.emb (ix2 p u)) l) := by
    funext l
    rw [hrowY]
    show FloatOps.addf (F := Ideal) (φ := .f32) (V c main_v60 (((cfg2.win 0).blk t).view.emb (ix2 p l)))
        (V c main_v61 (((cfg2.win 1).blk t).view.emb (ix2 (0 : Fin 1) l)))
      = FloatOps.addf (F := Ideal) (φ := .f32) (A (lidx_main_v96 (((cfg2.win 4).blk t).view.emb (ix2 p u)) l))
        (B (idx_main_v93 (lidx_main_v96 (((cfg2.win 4).blk t).view.emb (ix2 p u)) l)))
    rw [h0 l, h1 l, hA, hB]
  refine congrArg Ideal.logistic (congrArg₂ (· + ·) (Finset.sum_congr rfl fun k _ => ?_) ?_)
  · refine congrArg₂ (· * ·) (congrArg (fun G => Cert.Spec.logSoftmax G k) hrow) ?_
    show V c main_arg6 (((cfg2.win 2).blk t).view.emb (ix2 k u)) = _
    rw [h2 k]
  · show V c main_v62 (((cfg2.win 3).blk t).view.emb (ix2 (0 : Fin 1) u)) = _
    rw [h3, hC]

/-- What point t writes back is block t of the host computation's array. -/
theorem flushed_eq (c : Dev nD) (A Y : (⟨Cert.ReferenceIdeal.S100000x32, .f32⟩ : BufTy).Contents (Elt Ideal)) (B : (⟨Cert.ReferenceIdeal.S1x32, .f32⟩ : BufTy).Contents (Elt Ideal)) (C : (⟨Cert.ReferenceIdeal.S1x1, .f32⟩ : BufTy).Contents (Elt Ideal))
    (hA : V c main_v60 = A) (hB : V c main_v61 = B) (hC : V c main_v62 = C)
    (hY : val_main_v94 (F := Ideal) x0 x1 x2 x3 x4 x5 = Y)
    (hrowY : ∀ j, Y j = FloatOps.addf (F := Ideal) (φ := .f32) (A j) (B (idx_main_v93 j)))
    (hC' : val_main_v97 (F := Ideal) x7 = C)
    (G : (⟨Cert.ReferenceIdeal.S100000x1, .f32⟩ : BufTy).Contents (Elt Ideal)) (hG : val_main_v105 (F := Ideal) x0 x1 x2 x3 x4 x5 (V c main_arg6) x7 = G)
    (t : Fin cfg2.N) :
    (dat2 V c).flushed 4 t = ((cfg2.win 4).blk t).view.read (Elt Ideal) G := by
  show (cfg2.win 4).cut (grid2.coords t) ((dat2 V c).after 4 t) = _
  rw [after2_4]
  unfold out2_4
  rw [View.canon_unit_zero origin]
  simp only [View.ld_unit_zero (S := S5000x32) origin, View.ld_unit_zero (S := S1x32) origin,
    View.ld_unit_zero (S := S32x1) origin, View.ld_unit_zero (S := S1x1) origin]
  funext j
  obtain ⟨p, u, rfl⟩ : ∃ (p : Fin 5000) (u : Fin 1), j = ix2 p u := ⟨j 0, j 1, eq_ix2 j⟩
  exact block_entry V x0 x1 x2 x3 x4 x5 x7 c A Y B C hA hB hC hY hrowY hC' G hG t p u

end Entry

/-- An index of the result array is in point t's block iff each coordinate is in the block's range on its axis. -/
theorem mem_block (t : Fin cfg2.N) (i : S100000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v63).slice (win2_4.rect t)).set ↔ _
  rw [View.set_slice_whole, Rect.mem_set_unit]
  exact Iff.rfl

/-- The twenty blocks tile the result: row r lies in the block of point r / 5000. -/
theorem cover (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  obtain ⟨t, ht⟩ := blocks_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 1 ≤ (i 1).val ∧ (i 1).val < win2_4.index t (1 : Fin 2) * 1 + 1; omega

/-- After the launch the result array is the host's result, when the launch finds the aggregated second-layer features,
    the bias row and the scalar bias the host computes. -/
theorem final (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal))
    (x4 : (⟨Cert.ReferenceIdeal.S64x32, .f32⟩ : BufTy).Contents (Elt Ideal))
    (x5 : (⟨Cert.ReferenceIdeal.S32, .f32⟩ : BufTy).Contents (Elt Ideal))
    (x7 : (⟨Cert.ReferenceIdeal.S1, .f32⟩ : BufTy).Contents (Elt Ideal)) (c : Dev nD)
    (hA : V c main_v60 = val_main_v91 (F := Ideal) x0 x1 x2 x3 x4) (hB : V c main_v61 = val_main_v92 (F := Ideal) x5)
    (hC : V c main_v62 = val_main_v97 (F := Ideal) x7) :
    (dat2 V c).arrAt 4 cfg2.N = val_main_v105 (F := Ideal) x0 x1 x2 x3 x4 x5 (V c main_arg6) x7 :=
  (dat2 V c).arrAt_eq_of_cover 4 _ (fun t _ => flushed_eq V x0 x1 x2 x3 x4 x5 x7 c _ _ _ _ hA hB hC rfl
    (fun j => by rw [val_main_v94_apply, val_main_v93_apply]) rfl _ rfl t) cover

end Cert.KernelIdeal.Layer3

end
-- ==== Proof.Chain.lean ====
/-
  The program's buffers at the boundaries of its eight segments, read against the reference's stages.

  From the launch memory: the edge arrays after the first host stretch; the first product after the first launch; the
  first aggregation and the first bias row after the second stretch; the second product after the second launch; the
  second aggregation, the second bias row and the scalar bias after the third stretch; and after the last launch the
  result buffer holds the reference's last stage value of the eight arguments. A launch leaves every buffer that is
  not one of its arrays as it found it; a host stretch leaves the buffers it does not write.
-/
import proofs.«129138_j23244363006577_1_alg».proof.Proof.Gen.KernelIdeal.Frame
import proofs.«129138_j23244363006577_1_alg».proof.Proof.Stretch
import proofs.«129138_j23244363006577_1_alg».proof.Proof.Layer1
import proofs.«129138_j23244363006577_1_alg».proof.Proof.Layer2
import proofs.«129138_j23244363006577_1_alg».proof.Proof.Layer3

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-! ## At the first launch's entry -/

theorem arg0_at3 (c : Dev nD) : W3 m ρ c (Proc.devRef .tc main_arg0) = m ((c.tc : Thread nD τ).loc main_arg0) :=
  Stretch.keep0_arg0 (W0 m ρ c)
theorem arg2_at3 (c : Dev nD) : W3 m ρ c (Proc.devRef .tc main_arg2) = m ((c.tc : Thread nD τ).loc main_arg2) :=
  Stretch.keep0_arg2 (W0 m ρ c)
theorem arg3_at3 (c : Dev nD) : W3 m ρ c (Proc.devRef .tc main_arg3) = m ((c.tc : Thread nD τ).loc main_arg3) :=
  Stretch.keep0_arg3 (W0 m ρ c)
theorem arg4_at3 (c : Dev nD) : W3 m ρ c (Proc.devRef .tc main_arg4) = m ((c.tc : Thread nD τ).loc main_arg4) :=
  Stretch.keep0_arg4 (W0 m ρ c)
theorem arg5_at3 (c : Dev nD) : W3 m ρ c (Proc.devRef .tc main_arg5) = m ((c.tc : Thread nD τ).loc main_arg5) :=
  Stretch.keep0_arg5 (W0 m ρ c)
theorem arg6_at3 (c : Dev nD) : W3 m ρ c (Proc.devRef .tc main_arg6) = m ((c.tc : Thread nD τ).loc main_arg6) :=
  Stretch.keep0_arg6 (W0 m ρ c)
theorem arg7_at3 (c : Dev nD) : W3 m ρ c (Proc.devRef .tc main_arg7) = m ((c.tc : Thread nD τ).loc main_arg7) :=
  Stretch.keep0_arg7 (W0 m ρ c)

theorem sources_at3 (c : Dev nD) : W3 m ρ c (Proc.devRef .tc main_v5) = val_main_v6 (F := Ideal) (m ((c.tc : Thread nD τ).loc main_arg1)) :=
  Stretch.sources (W0 m ρ c)
theorem destinations_at3 (c : Dev nD) : W3 m ρ c (Proc.devRef .tc main_v6) = val_main_v7 (F := Ideal) (m ((c.tc : Thread nD τ).loc main_arg1)) :=
  Stretch.destinations (W0 m ρ c)
theorem edgeFactors_at3 (c : Dev nD) : W3 m ρ c (Proc.devRef .tc main_v31) = val_main_v32 (F := Ideal) (m ((c.tc : Thread nD τ).loc main_arg1)) :=
  Stretch.edgeFactors (W0 m ρ c)

/-! ## After the first launch -/

theorem product_at4 (c : Dev nD) :
    W4 m ρ c (Proc.devRef .tc main_v32) = val_main_v4 (F := Ideal) (m ((c.tc : Thread nD τ).loc main_arg0)) (m ((c.tc : Thread nD τ).loc main_arg2)) :=
  (W4_arr m ρ c 2).trans ((Layer1.final (V3 m ρ) c).trans
    (congrArg₂ (val_main_v4 (F := Ideal)) (arg0_at3 m ρ c) (arg2_at3 m ρ c)))

theorem sources_at4 (c : Dev nD) : W4 m ρ c (Proc.devRef .tc main_v5) = val_main_v6 (F := Ideal) (m ((c.tc : Thread nD τ).loc main_arg1)) :=
  (W4_of_ne m ρ c main_v5 (by decide)).trans (sources_at3 m ρ c)
theorem destinations_at4 (c : Dev nD) : W4 m ρ c (Proc.devRef .tc main_v6) = val_main_v7 (F := Ideal) (m ((c.tc : Thread nD τ).loc main_arg1)) :=
  (W4_of_ne m ρ c main_v6 (by decide)).trans (destinations_at3 m ρ c)
theorem edgeFactors_at4 (c : Dev nD) : W4 m ρ c (Proc.devRef .tc main_v31) = val_main_v32 (F := Ideal) (m ((c.tc : Thread nD τ).loc main_arg1)) :=
  (W4_of_ne m ρ c main_v31 (by decide)).trans (edgeFactors_at3 m ρ c)
theorem arg3_at4 (c : Dev nD) : W4 m ρ c (Proc.devRef .tc main_arg3) = m ((c.tc : Thread nD τ).loc main_arg3) :=
  (W4_of_ne m ρ c main_arg3 (by decide)).trans (arg3_at3 m ρ c)
theorem arg4_at4 (c : Dev nD) : W4 m ρ c (Proc.devRef .tc main_arg4) = m ((c.tc : Thread nD τ).loc main_arg4) :=
  (W4_of_ne m ρ c main_arg4 (by decide)).trans (arg4_at3 m ρ c)
theorem arg5_at4 (c : Dev nD) : W4 m ρ c (Proc.devRef .tc main_arg5) = m ((c.tc : Thread nD τ).loc main_arg5) :=
  (W4_of_ne m ρ c main_arg5 (by decide)).trans (arg5_at3 m ρ c)
theorem arg6_at4 (c : Dev nD) : W4 m ρ c (Proc.devRef .tc main_arg6) = m ((c.tc : Thread nD τ).loc main_arg6) :=
  (W4_of_ne m ρ c main_arg6 (by decide)).trans (arg6_at3 m ρ c)
theorem arg7_at4 (c : Dev nD) : W4 m ρ c (Proc.devRef .tc main_arg7) = m ((c.tc : Thread nD τ).loc main_arg7) :=
  (W4_of_ne m ρ c main_arg7 (by decide)).trans (arg7_at3 m ρ c)

/-! ## At the second launch's entry -/

theorem aggregate_at5 (c : Dev nD) :
    W5 m ρ c (Proc.devRef .tc main_v45) = val_main_v45 (F := Ideal) (m ((c.tc : Thread nD τ).loc main_arg0)) (m ((c.tc : Thread nD τ).loc main_arg1)) (m ((c.tc : Thread nD τ).loc main_arg2)) :=
  Stretch.aggregate1 (W4 m ρ c) _ _ _ (product_at4 m ρ c) (sources_at4 m ρ c) (destinations_at4 m ρ c) (edgeFactors_at4 m ρ c)

theorem biasRow_at5 (c : Dev nD) : W5 m ρ c (Proc.devRef .tc main_v46) = val_main_v46 (F := Ideal) (m ((c.tc : Thread nD τ).loc main_arg3)) :=
  (Stretch.biasRow1 (W4 m ρ c)).trans (congrArg (val_main_v46 (F := Ideal)) (arg3_at4 m ρ c))

theorem sources_at5 (c : Dev nD) : W5 m ρ c (Proc.devRef .tc main_v5) = val_main_v6 (F := Ideal) (m ((c.tc : Thread nD τ).loc main_arg1)) :=
  (Stretch.keep1_v5 (W4 m ρ c)).trans (sources_at4 m ρ c)
theorem destinations_at5 (c : Dev nD) : W5 m ρ c (Proc.devRef .tc main_v6) = val_main_v7 (F := Ideal) (m ((c.tc : Thread nD τ).loc main_arg1)) :=
  (Stretch.keep1_v6 (W4 m ρ c)).trans (destinations_at4 m ρ c)
theorem edgeFactors_at5 (c : Dev nD) : W5 m ρ c (Proc.devRef .tc main_v31) = val_main_v32 (F := Ideal) (m ((c.tc : Thread nD τ).loc main_arg1)) :=
  (Stretch.keep1_v31 (W4 m ρ c)).trans (edgeFactors_at4 m ρ c)
theorem arg4_at5 (c : Dev nD) : W5 m ρ c (Proc.devRef .tc main_arg4) = m ((c.tc : Thread nD τ).loc main_arg4) :=
  (Stretch.keep1_arg4 (W4 m ρ c)).trans (arg4_at4 m ρ c)
theorem arg5_at5 (c : Dev nD) : W5 m ρ c (Proc.devRef .tc main_arg5) = m ((c.tc : Thread nD τ).loc main_arg5) :=
  (Stretch.keep1_arg5 (W4 m ρ c)).trans (arg5_at4 m ρ c)
theorem arg6_at5 (c : Dev nD) : W5 m ρ c (Proc.devRef .tc main_arg6) = m ((c.tc : Thread nD τ).loc main_arg6) :=
  (Stretch.keep1_arg6 (W4 m ρ c)).trans (arg6_at4 m ρ c)
theorem arg7_at5 (c : Dev nD) : W5 m ρ c (Proc.devRef .tc main_arg7) = m ((c.tc : Thread nD τ).loc main_arg7) :=
  (Stretch.keep1_arg7 (W4 m ρ c)).trans (arg7_at4 m ρ c)

/-! ## After the second launch -/

theorem product_at6 (c : Dev nD) :
    W6 m ρ c (Proc.devRef .tc main_v47) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_arr m ρ c 3).trans ((Layer2.final (V5 m ρ) _ _ _ _ c (aggregate_at5 m ρ c) (biasRow_at5 m ρ c)).trans
    (congrArg (val_main_v50 (F := Ideal) (m ((c.tc : Thread nD τ).loc main_arg0)) (m ((c.tc : Thread nD τ).loc main_arg1)) (m ((c.tc : Thread nD τ).loc main_arg2)) (m ((c.tc : Thread nD τ).loc main_arg3))) (arg4_at5 m ρ c)))

theorem sources_at6 (c : Dev nD) : W6 m ρ c (Proc.devRef .tc main_v5) = val_main_v6 (F := Ideal) (m ((c.tc : Thread nD τ).loc main_arg1)) :=
  (W6_of_ne m ρ c main_v5 (by decide)).trans (sources_at5 m ρ c)
theorem destinations_at6 (c : Dev nD) : W6 m ρ c (Proc.devRef .tc main_v6) = val_main_v7 (F := Ideal) (m ((c.tc : Thread nD τ).loc main_arg1)) :=
  (W6_of_ne m ρ c main_v6 (by decide)).trans (destinations_at5 m ρ c)
theorem edgeFactors_at6 (c : Dev nD) : W6 m ρ c (Proc.devRef .tc main_v31) = val_main_v32 (F := Ideal) (m ((c.tc : Thread nD τ).loc main_arg1)) :=
  (W6_of_ne m ρ c main_v31 (by decide)).trans (edgeFactors_at5 m ρ c)
theorem arg5_at6 (c : Dev nD) : W6 m ρ c (Proc.devRef .tc main_arg5) = m ((c.tc : Thread nD τ).loc main_arg5) :=
  (W6_of_ne m ρ c main_arg5 (by decide)).trans (arg5_at5 m ρ c)
theorem arg6_at6 (c : Dev nD) : W6 m ρ c (Proc.devRef .tc main_arg6) = m ((c.tc : Thread nD τ).loc main_arg6) :=
  (W6_of_ne m ρ c main_arg6 (by decide)).trans (arg6_at5 m ρ c)
theorem arg7_at6 (c : Dev nD) : W6 m ρ c (Proc.devRef .tc main_arg7) = m ((c.tc : Thread nD τ).loc main_arg7) :=
  (W6_of_ne m ρ c main_arg7 (by decide)).trans (arg7_at5 m ρ c)

/-! ## At the last launch's entry -/

theorem aggregate_at7 (c : Dev nD) :
    W7 m ρ c (Proc.devRef .tc main_v60) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Stretch.aggregate2 (W6 m ρ c) _ _ _ _ _ (product_at6 m ρ c)
    ((sources_at6 m ρ c).trans (Stretch.sources_again _).symm)
    ((destinations_at6 m ρ c).trans (Stretch.destinations_again _).symm)
    ((edgeFactors_at6 m ρ c).trans (Stretch.edgeFactors_again _).symm)

theorem biasRow_at7 (c : Dev nD) : W7 m ρ c (Proc.devRef .tc main_v61) = val_main_v92 (F := Ideal) (m ((c.tc : Thread nD τ).loc main_arg5)) :=
  (Stretch.biasRow2 (W6 m ρ c)).trans (congrArg (val_main_v92 (F := Ideal)) (arg5_at6 m ρ c))

theorem biasCell_at7 (c : Dev nD) : W7 m ρ c (Proc.devRef .tc main_v62) = val_main_v97 (F := Ideal) (m ((c.tc : Thread nD τ).loc main_arg7)) :=
  (Stretch.biasCell (W6 m ρ c)).trans (congrArg (val_main_v97 (F := Ideal)) (arg7_at6 m ρ c))

theorem arg6_at7 (c : Dev nD) : W7 m ρ c (Proc.devRef .tc main_arg6) = m ((c.tc : Thread nD τ).loc main_arg6) :=
  (Stretch.keep2_arg6 (W6 m ρ c)).trans (arg6_at6 m ρ c)

/-! ## After the last launch -/

/-- The result buffer at the last boundary holds the reference's last stage value of the eight arguments. -/
theorem result (c : Dev nD) :
    W8 m ρ c (Proc.devRef .tc main_v63)
      = val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W8_arr m ρ c 4).trans ((Layer3.final (V7 m ρ) _ _ _ _ _ _ _ c (aggregate_at7 m ρ c) (biasRow_at7 m ρ c) (biasCell_at7 m ρ c)).trans
    (congrArg (fun w => val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) w (m ((c.tc : Thread nD τ).loc main_arg7))) (arg6_at7 m ρ c)))

end Cert.KernelIdeal.Chain

end
-- ==== Proof.lean ====
/-
  A two-layer graph convolution with a logistic read-out, as three tiled launches against one host computation.

  Both programs compute, from the node features x (100000 × 128), the edge list (2 × 1600000) and the parameters
  W1, b1, W2, b2, Wd, bd:
      h1 = Agg (x · W1),   h2 = Agg (max (h1 + b1, 0) · W2),   out = σ (logsoftmax_rows (h2 + b2) · Wd + bd),
  where Agg gathers the rows at the edges' sources (one self-loop per node appended), scales row e by
  deg(src e)^(-1/2) · deg(dst e)^(-1/2), and scatter-adds at the destinations, and σ(z) = 1 / (1 + exp (−z)).

  The tiled program runs the three dense steps as launches over twenty blocks of 5000 rows each and runs Agg on the host
  between them; the reference runs everything on the host. On the extended reals:
  * each launch leaves in its result array exactly the host's value of that step — a block's entry is a sum over the
    contracted coordinate of the same products (a change of float format is the identity; the product into a zero
    accumulator is the plain sum), the twenty blocks tile the array (Layer1, Layer2, Layer3 over Bodies and RefHead);
  * the host stretches between the launches are the reference's own operations, read as the same functions of their
    inputs (Stretch), and chained through the eight segments of the tiled program (Chain over KRun);
  * the reference's one line of 152 operations is read stage by stage (RefRunValue).
  No law of arithmetic that could fail at an infinity is used: the two sides are the same sums, maxima and compositions,
  so the precondition (finite inputs) is never opened. The ideal pass rewrote nothing, so the word-level program's
  idealization claim is trivial; the three frames are the generated frame certificates and the reference's run.
-/
import proofs.«129138_j23244363006577_1_alg».proof.Defs
import proofs.«129138_j23244363006577_1_alg».proof.Proof.Gen.Kernel
import proofs.«129138_j23244363006577_1_alg».proof.Proof.Gen.Kernel.Skeleton
import proofs.«129138_j23244363006577_1_alg».proof.Proof.Gen.Kernel.Launch
import proofs.«129138_j23244363006577_1_alg».proof.Proof.Gen.Kernel.Points
import proofs.«129138_j23244363006577_1_alg».proof.Proof.Gen.Kernel.Frame
import proofs.«129138_j23244363006577_1_alg».proof.Proof.Gen.KernelIdeal
import proofs.«129138_j23244363006577_1_alg».proof.Proof.Gen.KernelIdeal.Skeleton
import proofs.«129138_j23244363006577_1_alg».proof.Proof.Gen.KernelIdeal.Launch
import proofs.«129138_j23244363006577_1_alg».proof.Proof.Gen.KernelIdeal.Points
import proofs.«129138_j23244363006577_1_alg».proof.Proof.Gen.KernelIdeal.Frame
import proofs.«129138_j23244363006577_1_alg».proof.Proof.Gen.ReferenceIdeal
import proofs.«129138_j23244363006577_1_alg».proof.Proof.Gen.Pre_finite_inputs
import proofs.«129138_j23244363006577_1_alg».proof.Proof.RefRun
import proofs.«129138_j23244363006577_1_alg».proof.Proof.RefRead
import proofs.«129138_j23244363006577_1_alg».proof.Proof.RefRunValue
import proofs.«129138_j23244363006577_1_alg».proof.Proof.KRun
import proofs.«129138_j23244363006577_1_alg».proof.Proof.Chain
import Idealize.ShloMosaic.Adequacy
import Idealize.ShloMosaic.Init

noncomputable section

namespace Cert.Proof

open Idealize.ShloMosaic Idealize.SL.Sem Idealize.ShloMosaic.TcCoe

/-- The word-level program runs and keeps its arguments. -/
theorem frame_program : Cert.frame_Kernel := fun m ρ _ => Cert.Kernel.Gen.frame m ρ

/-- The idealized program runs and keeps its arguments. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RunValue.run (F := Ideal) m ρ)

/-- The ideal pass rewrote no operation. -/
theorem preserves : Cert.preserves_Kernel_KernelIdeal := trivial

/-- From memories agreeing on the eight arguments both programs run, and both results are the reference's last stage
    value of those arguments. -/
theorem algebraic : Cert.algebraic_KernelIdeal_ReferenceIdeal := by
  intro m ρ m' ρ' _ hagree
  refine ⟨fun c => Cert.ReferenceIdeal.Read.val_main_v105 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result m ρ c), (h c).2⟩)
      (Cert.KernelIdeal.Whole.run_value m ρ)
  · refine (θ_run Cert.ReferenceIdeal.defs _ _).mono (fun _ h c => ⟨(h c).1.trans ?_, (h c).2⟩)
      (Cert.ReferenceIdeal.RunValue.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_program, frame_ideal, frame_reference, preserves, algebraic⟩

end Cert.Proof

end
